-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x4096 .f32) (main_arg1 : FVec F S4096x256 .f32) (main_arg2 : FVec F S256x256 .f32) (main_arg3 : FVec F S256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S512x4096 : Shape := ⟨2, ![512, 4096]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S1x256, .f32⟩
  | .local _ .vmem, ⟨3, _⟩ => ⟨S512x4096, .f32⟩
  | .local _ .vmem, ⟨4, _⟩ => ⟨S512x4096, .f32⟩
  | .local _ .vmem, ⟨5, _⟩ => ⟨S512x256, .f32⟩
  | .local _ .vmem, ⟨6, _⟩ => ⟨S512x256, .f32⟩
  | .local _ .vmem, ⟨7, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S512x4096_S512x4096_0_0 : ∀ a, (![0, 0] : Fin 2 → Nat) a + S512x4096.size a ≤ S512x4096.size a
  h_S512x4096 : 0 < S512x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 22
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S1x256, .f32⟩
  | .hbm, ⟨17, _⟩ => ⟨S4096x4096, .bf16⟩
  | .hbm, ⟨18, _⟩ => ⟨S4096x256, .bf16⟩
  | .hbm, ⟨19, _⟩ => ⟨S256x256, .bf16⟩
  | .hbm, ⟨20, _⟩ => ⟨S4096x256, .bf16⟩
  | .hbm, ⟨21, _⟩ => ⟨S4096x256, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x4096_S4096x4096_000_000 : S4096x4096.Pads (![0, 0] : Fin 2 → Nat) ![0, 0] ![0, 0] S4096x4096
  h_S_ : 0 < S_.numel
  pads_S4096x256_S4096x256_000_000 : S4096x256.Pads (![0, 0] : Fin 2 → Nat) ![0, 0] ![0, 0] S4096x256
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .bf16 = 32 ∨ (Rect.block (s := S4096x256) S256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .bf16 = 32 ∨ (Rect.block (s := S4096x4096) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S4096x256.size a
  hwx1_1 : ∀ i : grid1.Coords, EltTy.bits .bf16 = 32 ∨ (Rect.block (s := S4096x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v6) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The graph-convolution layer as one function of its four argument arrays, over the extended reals.

  With A the 4096 × 4096 normalised adjacency, x the 4096 × 256 features, w the 256 × 256 weights and b the
  256 biases, the layer is  relu (A · (x · w) + b):  entry (r, j) is

      max ( Σ_k A(r, k) · ( Σ_l x(k, l) · w(l, j) ) + b(j) , 0 ).

  Both programs compute this entry: one sums over all 4096 positions k at once, the other over sixteen
  consecutive tiles of 256 positions, adding the tiles' partial sums one after the other. A finite sum may be
  grouped and ordered at will in any commutative monoid, and the extended reals under + are one, so no
  finiteness of the inputs is needed.
-/
import Idealize.ShloMosaic.Lib.ValueIdx
import Idealize.ShloMosaic.PureOps.Ideal.Laws

noncomputable section

open scoped BigOperators

namespace Cert.GcnSpec

open Idealize.ShloMosaic Idealize.ShloMosaic.ValueIdx

/-- The projected features x · w at (k, j). -/
def xw (x : (⟨2, ![4096, 256]⟩ : Shape).Idx → EReal) (w : (⟨2, ![256, 256]⟩ : Shape).Idx → EReal)
    (k : Fin 4096) (j : Fin 256) : EReal :=
  ∑ l : Fin 256, x (ix2 k l) * w (ix2 l j)

/-- The aggregation A · (x · w) at (r, j). -/
def agg (a : (⟨2, ![4096, 4096]⟩ : Shape).Idx → EReal) (x : (⟨2, ![4096, 256]⟩ : Shape).Idx → EReal)
    (w : (⟨2, ![256, 256]⟩ : Shape).Idx → EReal) (r : Fin 4096) (j : Fin 256) : EReal :=
  ∑ k : Fin 4096, a (ix2 r k) * xw x w k j

/-- The layer's output relu (A · (x · w) + b), index by index. -/
def G (a : (⟨2, ![4096, 4096]⟩ : Shape).Idx → EReal) (x : (⟨2, ![4096, 256]⟩ : Shape).Idx → EReal)
    (w : (⟨2, ![256, 256]⟩ : Shape).Idx → EReal) (b : (⟨1, ![256]⟩ : Shape).Idx → EReal) :
    (⟨2, ![4096, 256]⟩ : Shape).Idx → EReal :=
  fun i => max (agg a x w (i 0) (i 1) + b (ix1 (i 1))) 0

theorem G_apply (a : (⟨2, ![4096, 4096]⟩ : Shape).Idx → EReal) (x : (⟨2, ![4096, 256]⟩ : Shape).Idx → EReal)
    (w : (⟨2, ![256, 256]⟩ : Shape).Idx → EReal) (b : (⟨1, ![256]⟩ : Shape).Idx → EReal) (p : Fin 4096) (q : Fin 256) :
    G a x w b (ix2 p q) = max (agg a x w p q + b (ix1 q)) 0 := rfl

/-- Position `kk` of tile `kb` among the 4096 positions. -/
def tilePos (kb : Fin 16) (kk : Fin 256) : Fin 4096 := ⟨kb.val * 256 + kk.val, by omega⟩

/-- A sum over the 4096 positions is the sum over the sixteen tiles of the sums over each tile's 256 positions. -/
theorem sum_tiles {M : Type*} [AddCommMonoid M] (f : Fin 4096 → M) :
    ∑ k : Fin 4096, f k = ∑ kb : Fin 16, ∑ kk : Fin 256, f (tilePos kb kk) := by
  have e := Equiv.sum_comp (finProdFinEquiv (m := 16) (n := 256)) (fun k : Fin (16 * 256) => f k)
  rw [Fintype.sum_prod_type] at e
  refine e.symm.trans (Finset.sum_congr rfl fun kb _ => Finset.sum_congr rfl fun kk _ => ?_)
  refine congrArg f (Fin.ext ?_)
  show kk.val + 256 * kb.val = kb.val * 256 + kk.val
  omega

end Cert.GcnSpec

end
-- ==== Proof.KernelValue.Pieces.lean ====
/-
  What each of the two cases of the kernel body leaves behind, as a pure term of what it loaded.

  The body has two branches on the grid coordinate. At the first point it writes the carried scratch whole, once;
  at every later point it writes the output block whole, once, and leaves the scratch alone. A buffer written once
  through the rectangle that is all of it, at zero offsets, holds exactly the stored value; and a load of a whole
  buffer through that rectangle reads the buffer's contents. So each case's contents are the body's arithmetic
  applied to the contents of the buffers it read.
-/
import proofs.«122544_g2000504869895307_pallasbulk_559_14_alg».proof.Proof.Gen.KernelIdeal.Frame
import Idealize.ShloMosaic.Lib.Pipeline.Value
import Idealize.ShloMosaic.Lib.Tactic
import Idealize.ShloMosaic.Lib.ValueIdx

noncomputable section

open scoped BigOperators
open Idealize.ShloMosaic Idealize.ShloMosaic.TcCoe Idealize.SL.Sem
open Idealize.ShloMosaic.ValueIdx
open Idealize.ShloMosaic.Pipeline (Dat)

namespace Cert.KernelIdeal.KV

open Cert.KernelIdeal Cert.KernelIdeal.Gen

variable {F : FTy → Type} [FloatOps F]

/-- The zero offsets of a whole-buffer access, however they are spelt. -/
theorem hz : (![0, 0] : Fin 2 → Nat) = fun _ => 0 := funext fun a => by fin_cases a <;> rfl

/-- At the first grid point the body stores the whole scratch once: the product of the two whole input
    blocks it loaded (features and weights). -/
theorem soutA_eq (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S512x4096 .f32) (harg4 : arg4.IsWhole) (arg5 : Memref sig .tc .vmem S512x256 .f32) (harg5 : arg5.IsWhole) (arg6 : Memref sig .tc .vmem S4096x256 .bf16) (harg6 : arg6.IsWhole) (hc0 : cond0_0 i) (hc1 : ¬cond0_1 i)
    (x0 : Vec F S4096x256 .f32) (x1 : Vec F S256x256 .f32) (x2 : Vec F S1x256 .f32) (x3 : Vec F S512x4096 .f32) :
    sout0_A_0 c i arg1 harg1 arg2 harg2 arg3 harg3 arg4 harg4 arg5 harg5 arg6 harg6 hc0 hc1 x0 x1 x2 x3 = k0_pay1 x0 x1 := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  try sl_unfold_words
  rw [View.canon_unit_zero hz]
  simp only [View.readAt_eq_ld, harg1.read_unread, harg2.read_unread, View.ld_unit_zero (S := S4096x256) hz,
    View.ld_unit_zero (S := S256x256) hz]

/-- At every later grid point the body stores the whole output block once: the rows of the adjacency it
    loaded times the scratch as the point before left it, plus the bias row, clamped below at zero. -/
theorem outB_eq (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S512x4096 .f32) (harg4 : arg4.IsWhole) (arg5 : Memref sig .tc .vmem S512x256 .f32) (harg5 : arg5.IsWhole) (arg6 : Memref sig .tc .vmem S4096x256 .bf16) (harg6 : arg6.IsWhole) (hc0 : ¬cond0_0 i) (hc1 : cond0_1 i)
    (x0 : Vec F S4096x256 .f32) (x1 : Vec F S256x256 .f32) (x2 : Vec F S1x256 .f32) (x3 : Vec F S512x4096 .f32)
    (xs0 : Vec F S4096x256 .bf16) :
    out0_B_4 c i arg1 harg1 arg2 harg2 arg3 harg3 arg4 harg4 arg5 harg5 arg6 harg6 hc0 hc1 x0 x1 x2 x3 xs0 = k0_pay2 x3 xs0 x2 := by
  unfold out0_B_4
  rw [View.read_writes_eq_canon _ _ _ (cover0_B_4 c i arg1 harg1 arg2 harg2 arg3 harg3 arg4 harg4 arg5 harg5 arg6 harg6 hc0 hc1 x0 x1 x2 x3 xs0)]
  unfold kernelRun0_B
  dsimp only
  try sl_unfold_words
  rw [View.canon_unit_zero hz]
  simp only [View.readAt_eq_ld, harg3.read_unread, harg4.read_unread, harg6.read_unread,
    View.ld_unit_zero (S := S512x4096) hz, View.ld_unit_zero (S := S4096x256) hz, View.ld_unit_zero (S := S1x256) hz]

end Cert.KernelIdeal.KV

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KernelValue.Payload.lean ====
/-
  The body's two stored values read entry by entry over the extended reals.

  Rounding to a narrower float format and a cast to the same shape do nothing to an extended real; a matrix
  product into a zero accumulator is, at entry (p, q), the sum over the contraction position l of lhs (p, l) ·
  rhs (l, q); a one-row array broadcast over many rows reads its one row; and the stored zero word is 0.
-/
import proofs.«122544_g2000504869895307_pallasbulk_559_14_alg».proof.Proof.Gen.KernelIdeal.Skeleton
import proofs.«122544_g2000504869895307_pallasbulk_559_14_alg».proof.Proof.LibPlainDot
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.SL.Sem
open Idealize.ShloMosaic.ValueIdx
open Idealize.ShloMosaic.Pipeline (Dat)

namespace Cert.KernelIdeal.KV

open Cert.KernelIdeal Cert.KernelIdeal.Gen

/-- The printed dimension numbers of the first product are those of a plain 4096×256 by 256×256 product. -/
theorem dot1_eq : dot_S4096x256_S256x256_S4096x256_1_0_0_1_n_n = DotDims.plain 4096 256 256 := rfl

/-- The printed dimension numbers of the second product are those of a plain 512×4096 by 4096×256 product. -/
theorem dot2_eq : dot_S512x4096_S4096x256_S512x256_1_0_0_1_n_n = DotDims.plain 512 4096 256 := rfl

/-- The scratch's stored value at (p, q): over the extended reals the changes of float format are the identity
    and the product into a zero accumulator is the sum over the 256 contraction positions. -/
theorem pay1_apply (x : Vec Ideal S4096x256 .f32) (w : Vec Ideal S256x256 .f32) (p : Fin 4096) (q : Fin 256) :
    k0_pay1 x w (ix2 p q) = ∑ l : Fin 256, x (ix2 p l) * w (ix2 l q) := by
  unfold k0_pay1
  refine (congrFun (shapeCast_self _ _) (ix2 p q)).trans ?_
  exact Cert.LibPlainDot.matmul_zero_apply none (truncf .bf16 x bitsLt_bf16_f32) (truncf .bf16 w bitsLt_bf16_f32) p q

/-- The output block's stored value at (p, q): the sum over the 4096 positions of the adjacency row times the
    scratch column, plus the bias row's entry, clamped below at zero. -/
theorem pay2_apply (a : Vec Ideal S512x4096 .f32) (s : Vec Ideal S4096x256 .bf16) (b : Vec Ideal S1x256 .f32)
    (p : Fin 512) (q : Fin 256) :
    k0_pay2 a s b (ix2 p q) = max ((∑ k : Fin 4096, a (ix2 p k) * s (ix2 k q)) + b (ix2 (0 : Fin 1) q)) 0 := by
  unfold k0_pay2
  refine (maximumf_apply _ _ (ix2 p q)).trans ?_
  refine congrArg₂ max ?_ ?_
  · refine (addf_apply _ _ (ix2 p q)).trans ?_
    refine congrArg₂ (· + ·) ?_ ?_
    · exact Cert.LibPlainDot.matmul_zero_apply none (truncf .bf16 a bitsLt_bf16_f32) s p q
    · refine (broadcastTo_1b_ab_apply _ _ p q).trans ?_
      exact congrFun (shapeCast_self b _) (ix2 (0 : Fin 1) q)
  · exact (broadcast_apply _ _).trans Ideal.ofBits_zero_f32

end Cert.KernelIdeal.KV

end
-- ==== Proof.KernelValue.Blocks.lean ====
/-
  Where the pipeline's blocks sit in the arrays.

  The grid has nine points. The features, the weights and the bias row are staged whole at every point (block
  index 0 on both axes), so each of those blocks is its array. The adjacency and the output are staged 512 rows at
  a time: at point t both block indices are max (t − 1, 0) on the row axis and 0 on the column axis, and a block's
  element (p, k) sits in the array at row (block index) · 512 + p, column k. The output is written back at every
  point but the first. The bias row is the host's reshape of the 256 biases to one row of 256: its entry (0, q) is
  bias q. Row r of the output lies in the block of point r / 512 + 1, which is written back: the blocks written
  back cover the array.
-/
import proofs.«122544_g2000504869895307_pallasbulk_559_14_alg».proof.Proof.Gen.KernelIdeal.Frame
import Idealize.ShloMosaic.Lib.Pipeline.Value
import Idealize.ShloMosaic.Lib.ValueLayout
import Idealize.ShloMosaic.Lib.Tactic
import Idealize.ShloMosaic.Lib.ValueIdx

noncomputable section

open scoped BigOperators
open Idealize.ShloMosaic Idealize.ShloMosaic.TcCoe Idealize.SL.Sem
open Idealize.ShloMosaic.ValueIdx
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ)

/-- Where each window's block sits at each grid point, decided once over the nine points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val - 1 ∧ win0_3.index t (1 : Fin 2) = 0
    ∧ win0_4.index t (0 : Fin 2) = t.val - 1 ∧ win0_4.index t (1 : Fin 2) = 0 :=
  (by decide +kernel : ∀ t : Fin grid0.N, _)

/-- The output window is written back at every point but the first. -/
theorem flush4_iff : ∀ t : Fin cfg0.N, (cfg0.win 4).flush t = true ↔ 1 ≤ t.val :=
  (by decide +kernel : ∀ t : Fin grid0.N, win0_4.flush t = true ↔ 1 ≤ t.val)

/-- The features' block at any point is the whole features array as launched. -/
theorem iblk0_eq (c : Dev nD) (t : Fin cfg0.N) :
    (iblk m c 0 t : S4096x256.Idx → Elt F .f32) = m ((c : Thread nD τ).loc main_arg1) := by
  obtain ⟨e0, e1, -⟩ := idx_facts t
  funext y
  unfold iblk
  rw [View.read_apply]
  show V m c main_arg1 _ = m (c.tc.loc main_arg1) y
  refine (congrFun (V_main_arg1 m c) _).trans (congrArg _ (funext fun a => Fin.ext ?_))
  match a with
  | ⟨0, _⟩ => show win0_0.index t (0 : Fin 2) * 4096 + 1 * (y 0).val = (y 0).val; rw [e0]; omega
  | ⟨1, _⟩ => show win0_0.index t (1 : Fin 2) * 256 + 1 * (y 1).val = (y 1).val; rw [e1]; omega

/-- The weights' block at any point is the whole weights array as launched. -/
theorem iblk1_eq (c : Dev nD) (t : Fin cfg0.N) :
    (iblk m c 1 t : S256x256.Idx → Elt F .f32) = m ((c : Thread nD τ).loc main_arg2) := by
  obtain ⟨-, -, e0, e1, -⟩ := idx_facts t
  funext y
  unfold iblk
  rw [View.read_apply]
  show V m c main_arg2 _ = m (c.tc.loc main_arg2) y
  refine (congrFun (V_main_arg2 m c) _).trans (congrArg _ (funext fun a => Fin.ext ?_))
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias row as the region finds it: the host's reshape of the 256 biases to one row. -/
theorem V_bias (c : Dev nD) :
    (V m c main_v0 : S1x256.Idx → Elt F .f32)
      = shapeCast S1x256 (m ((c : Thread nD τ).loc main_arg3)) shapeCasts_S256_S1x256 := by
  dsimp only [Gen.V, Gen.hostOps0]
  after_results
  rfl

/-- The bias row's block at any point, at (0, q), is bias q as launched. -/
theorem iblk2_apply (c : Dev nD) (t : Fin cfg0.N) (q : Fin 256) :
    (iblk m c 2 t : S1x256.Idx → Elt F .f32) (ix2 (0 : Fin 1) q) = m ((c : Thread nD τ).loc main_arg3) (ix1 q) := by
  obtain ⟨-, -, -, -, e0, e1, -⟩ := idx_facts t
  unfold iblk
  rw [View.read_apply]
  show V m c main_v0 _ = _
  refine (congrFun (V_bias m c) _).trans ?_
  refine (congrArg (shapeCast S1x256 (m ((c : Thread nD τ).loc main_arg3)) shapeCasts_S256_S1x256)
    (funext fun a => Fin.ext ?_ : _ = ix2 (0 : Fin 1) q)).trans (shapeCast_a_1a_apply _ _ (0 : Fin 1) q)
  match a with
  | ⟨0, _⟩ => show win0_2.index t (0 : Fin 2) * 1 + 1 * 0 = 0; rw [e0]
  | ⟨1, _⟩ => show win0_2.index t (1 : Fin 2) * 256 + 1 * q.val = q.val; rw [e1]; omega

/-- The adjacency's block at point t, at (p, k), is the adjacency as launched at row (t − 1) · 512 + p, column k. -/
theorem iblk3_apply (c : Dev nD) (t : Fin cfg0.N) (p : Fin 512) (k : Fin 4096) (r : Fin 4096)
    (hr : r.val = (t.val - 1) * 512 + p.val) :
    (iblk m c 3 t : S512x4096.Idx → Elt F .f32) (ix2 p k) = m ((c : Thread nD τ).loc main_arg0) (ix2 r k) := by
  obtain ⟨-, -, -, -, -, -, e0, e1, -⟩ := idx_facts t
  unfold iblk
  rw [View.read_apply]
  show V m c main_arg0 _ = _
  refine (congrFun (V_main_arg0 m c) _).trans (congrArg _ (funext fun a => Fin.ext ?_))
  match a with
  | ⟨0, _⟩ => show win0_3.index t (0 : Fin 2) * 512 + 1 * p.val = r.val; rw [e0, hr]; omega
  | ⟨1, _⟩ => show win0_3.index t (1 : Fin 2) * 4096 + 1 * k.val = k.val; rw [e1]; omega

/-- The output's block at point t: its element (p, q) sits in the array at row (t − 1) · 512 + p, column q. -/
theorem emb4 (t : Fin cfg0.N) (p : Fin 512) (q : Fin 256) (r : Fin 4096) (hr : r.val = (t.val - 1) * 512 + p.val) :
    ((cfg0.win 4).blk t).view.emb (ix2 p q) = ix2 r q := by
  obtain ⟨-, -, -, -, -, -, -, -, e0, e1⟩ := idx_facts t
  funext a
  refine Fin.ext ?_
  match a with
  | ⟨0, _⟩ => show win0_4.index t (0 : Fin 2) * 512 + 1 * p.val = r.val; rw [e0, hr]; omega
  | ⟨1, _⟩ => show win0_4.index t (1 : Fin 2) * 256 + 1 * q.val = q.val; rw [e1]; omega

/-- An index of the output array is in point t's block iff each coordinate is in the block's range on its axis. -/
theorem mem_blk4 (t : Fin cfg0.N) (i : S4096x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v1).slice (win0_4.rect t)).set ↔ _
  rw [View.set_slice_whole, Rect.mem_set_unit]
  exact Iff.rfl

/-- Every index of the output array is in a block that is written back: row r in the block of point r / 512 + 1. -/
theorem cover4 (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 9 := N_0
  have hb : (i 0).val / 512 + 1 < cfg0.N := by omega
  obtain ⟨-, -, -, -, -, -, -, -, e0, e1⟩ := idx_facts ⟨(i 0).val / 512 + 1, hb⟩
  refine ⟨⟨(i 0).val / 512 + 1, hb⟩, (flush4_iff _).mpr (Nat.le_add_left 1 _), ?_⟩
  rw [mem_blk4]
  intro a
  match a with
  | ⟨0, _⟩ =>
    show win0_4.index ⟨(i 0).val / 512 + 1, hb⟩ (0 : Fin 2) * 512 ≤ (i 0).val
      ∧ (i 0).val < win0_4.index ⟨(i 0).val / 512 + 1, hb⟩ (0 : Fin 2) * 512 + 512
    rw [e0]
    show ((i 0).val / 512 + 1 - 1) * 512 ≤ (i 0).val ∧ (i 0).val < ((i 0).val / 512 + 1 - 1) * 512 + 512
    omega
  | ⟨1, _⟩ =>
    show win0_4.index ⟨(i 0).val / 512 + 1, hb⟩ (1 : Fin 2) * 256 ≤ (i 1).val
      ∧ (i 1).val < win0_4.index ⟨(i 0).val / 512 + 1, hb⟩ (1 : Fin 2) * 256 + 256
    rw [e1]
    omega

end Cert.KernelIdeal.KV

end
-- ==== Proof.KernelValue.lean ====
/-
  The kernel's result array is the graph-convolution layer of its four arguments.

  The carried scratch is written once, at the first grid point, with the projected features x · w, and no later
  point touches it: after every point it holds x · w (induction on the point). At point t ≥ 1 the body stores, into
  the output block, the 512 adjacency rows (t − 1) · 512 … (t − 1) · 512 + 511 times that scratch, plus the bias
  row, clamped below at zero — entry by entry the layer's value at the array index under that block entry. So what
  each write-back writes is its block of ONE whole-array function, the layer G of the arguments; the blocks
  written back cover the array; hence the array ends holding G, and the arguments are as launched.
-/
import proofs.«122544_g2000504869895307_pallasbulk_559_14_alg».proof.Proof.Gen.KernelIdeal.Value
import proofs.«122544_g2000504869895307_pallasbulk_559_14_alg».proof.Proof.Spec
import proofs.«122544_g2000504869895307_pallasbulk_559_14_alg».proof.Proof.KernelValue.Pieces
import proofs.«122544_g2000504869895307_pallasbulk_559_14_alg».proof.Proof.KernelValue.Payload
import proofs.«122544_g2000504869895307_pallasbulk_559_14_alg».proof.Proof.KernelValue.Blocks
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.ValueIdx
open Idealize.ShloMosaic.Pipeline (Dat)

namespace Cert.KernelIdeal.KV

open Cert.KernelIdeal Cert.KernelIdeal.Gen

open Cert.KernelIdeal.Value

/-- The carried scratch after ANY point is what the first point stored: the product of the features' and the
    weights' blocks of the first point. By induction on the point: the first point stores it, every later point
    leaves the scratch as the point before left it. -/
theorem scratch_eq {F : FTy → Type} [FloatOps F] (m : (ℓ : Loc nD τ sig) → Buf (Elt F) ℓ) (c : Dev nD)
    (h00 : 0 < cfg0.N) : ∀ (n : ℕ) (hn : n < cfg0.N),
    (outsAt0 m c n hn).2 = k0_pay1 (iblk m c 0 ⟨0, h00⟩) (iblk m c 1 ⟨0, h00⟩)
  | 0, hn => by
    have h0 : (⟨0, hn⟩ : Fin cfg0.N).val % 9 = 0 := Nat.zero_mod _
    have h1 : ¬1 ≤ (⟨0, hn⟩ : Fin cfg0.N).val := by dsimp only; omega
    rw [outsAt0_A m c ⟨0, hn⟩ h0 h1]
    dsimp only
    exact soutA_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩)
  | n + 1, hn => by
    have hN : cfg0.N = 9 := N_0
    have h0 : ¬(⟨n + 1, hn⟩ : Fin cfg0.N).val % 9 = 0 := by dsimp only; omega
    have h1 : 1 ≤ (⟨n + 1, hn⟩ : Fin cfg0.N).val := by dsimp only; omega
    rw [outsAt0_B m c ⟨n + 1, hn⟩ h0 h1]
    dsimp only
    unfold sout0_B_0
    exact scratch_eq m c h00 n _

variable (m : (ℓ : Loc nD τ sig) → Buf (Elt Ideal) ℓ) (ρ : Dev nD → PrngReg)

/-- ONE ENTRY of the block stored at point t: with the scratch holding the product of the first point's blocks,
    entry (p, q) is the layer's value at row (t − 1) · 512 + p, column q — the adjacency block's row p is the
    adjacency's row r, the scratch's column q is x · w's, the bias row's entry q is bias q. -/
theorem block_val (c : Dev nD) (t : Fin cfg0.N) (h00 : 0 < cfg0.N) (p : Fin 512) (q : Fin 256) (r : Fin 4096)
    (hr : r.val = (t.val - 1) * 512 + p.val) :
    k0_pay2 (iblk m c 3 t) (k0_pay1 (iblk m c 0 ⟨0, h00⟩) (iblk m c 1 ⟨0, h00⟩)) (iblk m c 2 t) (ix2 p q)
      = Cert.GcnSpec.G (m ((c.tc : Thread nD τ).loc main_arg0)) (m ((c.tc : Thread nD τ).loc main_arg1)) (m ((c.tc : Thread nD τ).loc main_arg2)) (m ((c.tc : Thread nD τ).loc main_arg3)) (ix2 r q) := by
  refine (pay2_apply (iblk m c 3 t) (k0_pay1 (iblk m c 0 ⟨0, h00⟩) (iblk m c 1 ⟨0, h00⟩)) (iblk m c 2 t) p q).trans ?_
  refine Eq.trans ?_ (Cert.GcnSpec.G_apply _ _ _ _ r q).symm
  refine congrArg₂ max (congrArg₂ (· + ·) ?_ (iblk2_apply m c t q)) rfl
  unfold Cert.GcnSpec.agg
  refine Finset.sum_congr rfl fun k _ => congrArg₂ (· * ·) (iblk3_apply m c t p k r hr) ?_
  refine (pay1_apply (iblk m c 0 ⟨0, h00⟩) (iblk m c 1 ⟨0, h00⟩) k q).trans ?_
  unfold Cert.GcnSpec.xw
  exact Finset.sum_congr rfl fun l _ => congrArg₂ (· * ·) (congrFun (iblk0_eq m c ⟨0, h00⟩) (ix2 k l))
    (congrFun (iblk1_eq m c ⟨0, h00⟩) (ix2 l q))

/-- WHAT A WRITE-BACK WRITES is its block of the layer G of the arguments as launched. -/
theorem flushed_eq (c : Dev nD) (t : Fin cfg0.N) (hf : (cfg0.win 4).flush t = true) :
    (dats m 0 c).flushed 4 t = ((cfg0.win 4).blk t).view.read (Elt Ideal) (Cert.GcnSpec.G (m ((c.tc : Thread nD τ).loc main_arg0)) (m ((c.tc : Thread nD τ).loc main_arg1)) (m ((c.tc : Thread nD τ).loc main_arg2)) (m ((c.tc : Thread nD τ).loc main_arg3))) := by
  have hN : cfg0.N = 9 := N_0
  have h00 : 0 < cfg0.N := by omega
  have h1 : 1 ≤ t.val := (flush4_iff t).mp hf
  have h0 : ¬t.val % 9 = 0 := by have := t.isLt; omega
  refine (Value.flushed4_B m c t h0 h1).trans ?_
  refine (congrArg ((cfg0.win 4).cut (grid0.coords t))
    (outB_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2)).trans ?_
  rw [scratch_eq m c h00 (t.val - 1) _]
  funext j
  obtain ⟨p, q, rfl⟩ : ∃ (p : Fin 512) (q : Fin 256), j = ix2 p q := ⟨j 0, j 1, eq_ix2 j⟩
  have hr : (t.val - 1) * 512 + p.val < 4096 := by have := t.isLt; have := p.isLt; omega
  rw [View.read_apply, emb4 t p q ⟨_, hr⟩ rfl]
  exact block_val m c t h00 p q ⟨_, hr⟩ rfl

/-- THE ARRAY after the run is the layer of the arguments: every write-back writes its block of G, and the blocks
    written back cover the array. -/
theorem final (c : Dev nD) : (dats m 0 c).arrAt 4 cfg0.N = Cert.GcnSpec.G (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 (Cert.GcnSpec.G (m ((c.tc : Thread nD τ).loc main_arg0)) (m ((c.tc : Thread nD τ).loc main_arg1)) (m ((c.tc : Thread nD τ).loc main_arg2)) (m ((c.tc : Thread nD τ).loc main_arg3))) (fun t hf => flushed_eq m c t hf) cover4

/-- The run, read: the result array at the layer of the arguments, the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread nD τ).loc main_v1) = Cert.GcnSpec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (Cert.KernelIdeal.Value.run_blocks m ρ)

end Cert.KernelIdeal.KV

end
-- ==== Proof.RefRegion0.lean ====
/-
  The projection region of the reference: sixteen grid points, point t multiplying rows 256·t … 256·t+255 of the
  features by the whole weight matrix into the same rows of the projected features.

  Stated at a parameter `V`, the contents of the core's buffers when the region is entered: the block of each
  window at a point, what the body leaves in the output window's buffer (its one whole-block store of the product),
  the body's triple, the proof data of the pipeline and the body obligation at every point.
-/
import proofs.«122544_g2000504869895307_pallasbulk_559_14_alg».proof.Proof.Gen.ReferenceIdeal.Launch
import proofs.«122544_g2000504869895307_pallasbulk_559_14_alg».proof.Proof.Gen.ReferenceIdeal.Skeleton
import proofs.«122544_g2000504869895307_pallasbulk_559_14_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the whole weight matrix at every point (fetched once, never moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 256 rectangle the body loads and stores through. -/
abbrev r0 : Rect S256x256 := Rect.unit (s := S256x256) ![0, 0] S256x256.size inb_S256x256_S256x256_0_0

/-- The output window's buffer after the body: its one store, of the product of the two loaded blocks. -/
def out0_2 (x0 : Vec F S256x256 .bf16) (x1 : Vec F S256x256 .bf16) : Vec F S256x256 .bf16 :=
  View.canon [⟨r0, k0_pay1 (View.ld x0 r0) (View.ld x1 r0)⟩]

/-- The one store covers the buffer. -/
theorem cover0_2 (p0 : Vec F S256x256 .bf16) (y : S256x256.Idx) :
    ∃ pc ∈ ([⟨r0, p0⟩] : List (View.Piece (Elt F) S256x256 .bf16)), y ∈ pc.1.set :=
  View.cover_of_tiled [⟨r0, p0⟩] S256x256.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole)
    (x0 : Vec F S256x256 .bf16) (x1 : Vec F S256x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`: the arrays as the region finds them; after the body at
    point `t` each input's buffer at its block and the output's at the product of the two blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.RF

end
-- ==== Proof.RefAgg.lean ====
/-
  The aggregation region of the reference: a 16 × 16 grid, point (i, k) adding the product of tile (i, k) of the
  adjacency with rows 256·k … 256·k+255 of the projected features into a 256 × 256 accumulator that is zeroed at
  k = 0, carried from point to point, and at k = 15 written, with the bias added and clipped at zero, to rows
  256·i … 256·i+255 of the result.

  What every control case of its body shares: the two branch conditions in closed form over the grid, where the
  output window is idle, the memrefs the pipeline passes at a point, the class invariant with the accumulator as
  an owned memref, and each input window's block at a point.
-/
import proofs.«122544_g2000504869895307_pallasbulk_559_14_alg».proof.Proof.Gen.ReferenceIdeal.Launch
import proofs.«122544_g2000504869895307_pallasbulk_559_14_alg».proof.Proof.Gen.ReferenceIdeal.Skeleton
import proofs.«122544_g2000504869895307_pallasbulk_559_14_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "This is the first tile of the row" (k = 0): the accumulator is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last tile of the row" (k = 15): the result block is stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last tile the body stores nothing into the output window: it is idle there, -/
theorem idleAt1_3 : ∀ t : Fin cfg1.N, ¬cond1_1 (grid1.coords t) → cfg1.idle 3 (grid1.coords t) = true := by decide +kernel
/-- and not written back there. -/
theorem noFlush1_3 : ∀ t : Fin cfg1.N, ¬cond1_1 (grid1.coords t) → (cfg1.win 3).flush t = false := by decide +kernel
/-- At the last tile it is live. -/
theorem liveAt1_3 : ∀ t : Fin cfg1.N, cond1_1 (grid1.coords t) → cfg1.idle 3 (grid1.coords t) = false := by decide +kernel

/-! ## The memrefs at a point -/

abbrev VO1_3 : View sig .tc .vmem S256x256 .f32 := (Memref.whole cc1_stg3_0 : Memref sig .tc .vmem S256x256 .f32).view
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S256x256 .f32 := Memref.whole cc1_scratch0
abbrev VS1_0 : View sig .tc .vmem S256x256 .f32 := scM1_0.view

/-- A scoped buffer of the other region, whole at some contents. -/
abbrev someAt (c : Dev nD) (b : Ref sig .tc) : sProp 𝕄 := iprop(∃ f : Buf (Elt F) ((c : Thread nD τ).loc b), ((c : Thread nD τ).loc b) ↦{fullShare} f)

/-- The class invariant with the accumulator as a memref owned at some contents: the other region's five staging
    buffers at anything, the accumulator, and the generator register at some state. -/
theorem PhiA1_eq (c : Dev nD) :
    (Pipeline.ΦA spec1 c : sProp 𝕄)
      = iprop(iprop(someAt c cc0_stg0_0 ∗ someAt c cc0_stg0_1 ∗ someAt c cc0_stg1_0 ∗ someAt c cc0_stg2_0 ∗ someAt c cc0_stg2_1 ∗ (∃ d, owns (c : Thread nD τ) scM1_0 fullShare d)) ∗ (∃ r, prngReg c r)) := by
  unfold Pipeline.ΦA; rw [scopedRest1_eq]; simp only [scM1_0, owns_whole]; try rfl

/-! ## The windows' blocks -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

end Cert.ReferenceIdeal.RF

end
-- ==== Proof.RefAggRunA.lean ====
/-
  The aggregation kernel's body at the first tile of a row (k = 0): the accumulator, whatever it held, is zeroed, and the
  tile's product added to it; nothing is stored into the output window.
-/
import proofs.«122544_g2000504869895307_pallasbulk_559_14_alg».proof.Proof.RefAgg

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the output window's buffer and in the accumulator in this case, with the
    proof that on whole memrefs — the inputs' at their contents — the body runs to the continuation holding the
    inputs' as they were and each stored buffer with its pieces written; each conditional is decided by the case's
    hypotheses. -/
noncomputable def kernelRun1_A (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x256 .bf16) (x1 : Vec F S256x256 .bf16) (x2 : Vec F S1x256 .f32) :
    Σ' (L3 : List (View.Piece (Elt F) S256x256 .f32)), { LS0 : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.RF

end
-- ==== Proof.RefAggRunB.lean ====
/-
  The aggregation kernel's body at a middle tile of a row (0 < k < 15): the tile's product is added to what the
  accumulator held after the tile before; nothing is stored into the output window.
-/
import proofs.«122544_g2000504869895307_pallasbulk_559_14_alg».proof.Proof.RefAggRunA

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the output window's buffer and in the accumulator in this case, with the
    proof that on whole memrefs — the inputs' at their contents — the body runs to the continuation holding the
    inputs' as they were and each stored buffer with its pieces written; each conditional is decided by the case's
    hypotheses. -/
noncomputable def kernelRun1_B (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x256 .bf16) (x1 : Vec F S256x256 .bf16) (x2 : Vec F S1x256 .f32) (xs0 : Vec F S256x256 .f32) :
    Σ' (L3 : List (View.Piece (Elt F) S256x256 .f32)), { LS0 : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.RF

end
-- ==== Proof.RefAggRunC.lean ====
/-
  The aggregation kernel's body at the last tile of a row (k = 15): the tile's product is added to what the accumulator
  held, and the sum, with the bias added and clipped at zero, is stored whole into the output window.
-/
import proofs.«122544_g2000504869895307_pallasbulk_559_14_alg».proof.Proof.RefAggRunB

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The pieces the body's stores leave in the output window's buffer and in the accumulator in this case, with the
    proof that on whole memrefs — the inputs' at their contents — the body runs to the continuation holding the
    inputs' as they were and each stored buffer with its pieces written; each conditional is decided by the case's
    hypotheses. -/
noncomputable def kernelRun1_C (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x256 .bf16) (x1 : Vec F S256x256 .bf16) (x2 : Vec F S1x256 .f32) (xs0 : Vec F S256x256 .f32) :
    Σ' (L3 : List (View.Piece (Elt F) S256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.ReferenceIdeal.RF

end
-- ==== Proof.RefAggData.lean ====
/-
  The aggregation region's proof data. What each control case of the body leaves in the accumulator (its stores read
  back) and, at the last tile of a row, in the output window; what the two hold after every grid point, by recursion on
  the point (the accumulator at a point that is not a row's first tile is read from what the point before left); the
  region's invariant, which carries the accumulator's contents from point to point; and the body obligation.
-/
import proofs.«122544_g2000504869895307_pallasbulk_559_14_alg».proof.Proof.RefAggRunC

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First tile: the accumulator after the body, its stores read back. -/
def sout1_A_0 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i) (x0 : Vec F S256x256 .bf16) (x1 : Vec F S256x256 .bf16) (x2 : Vec F S1x256 .f32) : Vec F S256x256 .f32 :=
  VS1_0.read (Elt F) (VS1_0.writes (Elt F) VS1_0.junk (kernelRun1_A c i arg2 harg2 arg3 harg3 arg4 harg4 arg5 harg5 arg6 harg6 hc0 hc1 x0 x1 x2).2.1)
/-- Its stores cover the accumulator. -/
theorem scover1_A_0 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i) (x0 : Vec F S256x256 .bf16) (x1 : Vec F S256x256 .bf16) (x2 : Vec F S1x256 .f32) (y : S256x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S256x256.size (by sl_kernel_rfl) y

/-- Middle tile: the accumulator after the body, over what the point before left (`xs0`). -/
def sout1_B_0 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i) (x0 : Vec F S256x256 .bf16) (x1 : Vec F S256x256 .bf16) (x2 : Vec F S1x256 .f32) (xs0 : Vec F S256x256 .f32) : Vec F S256x256 .f32 :=
  VS1_0.read (Elt F) (VS1_0.writes (Elt F) VS1_0.junk (kernelRun1_B c i arg2 harg2 arg3 harg3 arg4 harg4 arg5 harg5 arg6 harg6 hc0 hc1 x0 x1 x2 xs0).2.1)
theorem scover1_B_0 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i) (x0 : Vec F S256x256 .bf16) (x1 : Vec F S256x256 .bf16) (x2 : Vec F S1x256 .f32) (xs0 : Vec F S256x256 .f32) (y : S256x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S256x256.size (by sl_kernel_rfl) y

/-- Last tile: the accumulator after the body, -/
def sout1_C_0 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x256 .bf16) (x1 : Vec F S256x256 .bf16) (x2 : Vec F S1x256 .f32) (xs0 : Vec F S256x256 .f32) : Vec F S256x256 .f32 :=
  VS1_0.read (Elt F) (VS1_0.writes (Elt F) VS1_0.junk (kernelRun1_C c i arg2 harg2 arg3 harg3 arg4 harg4 arg5 harg5 arg6 harg6 hc0 hc1 x0 x1 x2 xs0).2.1)
theorem scover1_C_0 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x256 .bf16) (x1 : Vec F S256x256 .bf16) (x2 : Vec F S1x256 .f32) (xs0 : Vec F S256x256 .f32) (y : S256x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S256x256.size (by sl_kernel_rfl) y
/-- and the output window's buffer. -/
def out1_C_3 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x256 .bf16) (x1 : Vec F S256x256 .bf16) (x2 : Vec F S1x256 .f32) (xs0 : Vec F S256x256 .f32) : Vec F S256x256 .f32 :=
  VO1_3.read (Elt F) (VO1_3.writes (Elt F) VO1_3.junk (kernelRun1_C c i arg2 harg2 arg3 harg3 arg4 harg4 arg5 harg5 arg6 harg6 hc0 hc1 x0 x1 x2 xs0).1)
theorem cover1_C_3 (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x256 .bf16) (x1 : Vec F S256x256 .bf16) (x2 : Vec F S1x256 .f32) (xs0 : Vec F S256x256 .f32) (y : S256x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S256x256.size (by sl_kernel_rfl) y

/-- What stands for the output window's buffer at a point where the window is idle: nothing consults it. -/
def idleOut : Vec F S256x256 .f32 := VO1_3.read (Elt F) VO1_3.junk

section
variable (V : (c : Dev nD) → (b : Ref sig .tc) → Buf (Elt F) ((c : Thread nD τ).loc b))

/-! ## The cases at a grid point, over the point's memrefs and input blocks -/

theorem not_last_of_first (t : Fin cfg1.N) (h0 : t.val % 16 = 0) : ¬cond1_1 (grid1.coords t) :=
  fun h => by have := (hcond1_1 t).mp h; omega

def accFirst (c : Dev nD) (t : Fin cfg1.N) (h0 : t.val % 16 = 0) : Vec F S256x256 .f32 :=
  sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (not_last_of_first t h0) (iblk1 V c 0 t) (iblk1 V c 1 t) (iblk1 V c 2 t)
def accMid (c : Dev nD) (t : Fin cfg1.N) (h0 : ¬t.val % 16 = 0) (h1 : ¬t.val % 16 = 15) (xs0 : Vec F S256x256 .f32) : Vec F S256x256 .f32 :=
  sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs0
def accLast (c : Dev nD) (t : Fin cfg1.N) (h0 : ¬t.val % 16 = 0) (h1 : t.val % 16 = 15) (xs0 : Vec F S256x256 .f32) : Vec F S256x256 .f32 :=
  sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0
def outLast (c : Dev nD) (t : Fin cfg1.N) (h0 : ¬t.val % 16 = 0) (h1 : t.val % 16 = 15) (xs0 : Vec F S256x256 .f32) : Vec F S256x256 .f32 :=
  out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs0

/-! ## What the output window's buffer and the accumulator hold after each point -/

/-- After the body at position `n`: the output window's buffer (consulted at a row's last tile only) and the
    accumulator — at a row's first tile from nothing, elsewhere over what position `n - 1` left. -/
def outsAt1 (c : Dev nD) : (n : ℕ) → n < cfg1.N → Vec F S256x256 .f32 × Vec F S256x256 .f32
  | 0, hn => (idleOut, accFirst V c ⟨0, hn⟩ (Nat.zero_mod _))
  | n + 1, hn =>
    if h0 : (n + 1) % 16 = 0 then (idleOut, accFirst V c ⟨n + 1, hn⟩ h0)
    else if h1 : (n + 1) % 16 = 15 then
      (outLast V c ⟨n + 1, hn⟩ h0 h1 (outsAt1 c n (Nat.lt_of_succ_lt hn)).2, accLast V c ⟨n + 1, hn⟩ h0 h1 (outsAt1 c n (Nat.lt_of_succ_lt hn)).2)
    else (idleOut, accMid V c ⟨n + 1, hn⟩ h0 h1 (outsAt1 c n (Nat.lt_of_succ_lt hn)).2)

theorem outsAt1_A (c : Dev nD) (t : Fin cfg1.N) (h0 : t.val % 16 = 0) :
    outsAt1 V c t.val t.isLt = (idleOut, accFirst V c t h0) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleOut, accMid V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outLast V c t h0 h1 (outsAt1 V c (t.val - 1) (Nat.lt_of_le_of_lt (Nat.sub_le _ _) t.isLt)).2,
      accLast V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant: the accumulator carried between points -/

/-- Before position `n`: at the region's start the class invariant (the accumulator at anything); afterwards the other
    region's staging buffers at anything, the accumulator at what the point before left, the generator register at some
    state. -/
def PhiS1 (c : Dev nD) : (n : ℕ) → n ≤ cfg1.N → sProp 𝕄
  | 0, _ => Pipeline.ΦA spec1 c
  | n + 1, hn => iprop(iprop(someAt c cc0_stg0_0 ∗ someAt c cc0_stg0_1 ∗ someAt c cc0_stg1_0 ∗ someAt c cc0_stg2_0 ∗ someAt c cc0_stg2_1 ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(someAt c cc0_stg0_0 ∗ someAt c cc0_stg0_1 ∗ someAt c cc0_stg1_0 ∗ someAt c cc0_stg2_0 ∗ someAt c cc0_stg2_1 ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(someAt c cc0_stg0_0 ∗ someAt c cc0_stg0_1 ∗ someAt c cc0_stg1_0 ∗ someAt c cc0_stg2_0 ∗ someAt c cc0_stg2_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the aggregation pipeline on core `c`: the arrays as the region finds them; after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.ReferenceIdeal.RF

end
-- ==== Proof.RefAggBody.lean ====
/-
  The body obligation of the aggregation region: at every grid point the body, called on the point's staging memrefs
  holding the input blocks and on the accumulator as the invariant hands it over, returns them with the accumulator at
  this point's contents and, at a row's last tile, the output window's buffer at the clipped, biased sum. Also: the
  invariant is the class invariant at the region's start, and gives it back at its end (the accumulator's contents
  forgotten).
-/
import proofs.«122544_g2000504869895307_pallasbulk_559_14_alg».proof.Proof.RefAggData

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 3200000 in
/-- The body at any point. The closed forms say which of the three cases the point is in; the invariant hands the body
    the accumulator at what the point before left (at anything at the region's first point) and takes it back at this
    point's contents; the output window, idle away from a row's last tile, is handed back untouched there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · rw [Dat.leavesExact_idle (dat1 V c) 3 t (idleAt1_3 t (not_last_of_first t h0)) (noFlush1_3 t (not_last_of_first t h0))]
    rw [outsAt1_A V c t h0]
    unfold accFirst sout1_A_0; (try dsimp only)
    by_cases hz : t.val = 0
    · rw [PhiS1_castSucc V c t, PhiS1_zero V c _ _ hz, PhiA1_eq]
      iintro ⟨⟨⟨Ha0, Ha1, Ha2, Ha3, Ha4, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (not_last_of_first t h0) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha0 Ha1 Ha2 Ha3 Ha4 HS0 Hg]
      · isplitl [Ha0 Ha1 Ha2 Ha3 Ha4 HS0]
        · isplitl [Ha0]; · iexact Ha0
          isplitl [Ha1]; · iexact Ha1
          isplitl [Ha2]; · iexact Ha2
          isplitl [Ha3]; · iexact Ha3
          isplitl [Ha4]; · iexact Ha4
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha0, Ha1, Ha2, Ha3, Ha4, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (not_last_of_first t h0) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha0 Ha1 Ha2 Ha3 Ha4 HS0 Hg]
      · isplitl [Ha0 Ha1 Ha2 Ha3 Ha4 HS0]
        · isplitl [Ha0]; · iexact Ha0
          isplitl [Ha1]; · iexact Ha1
          isplitl [Ha2]; · iexact Ha2
          isplitl [Ha3]; · iexact Ha3
          isplitl [Ha4]; · iexact Ha4
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outLast accLast out1_C_3 sout1_C_0; (try dsimp only)
      rw [PhiS1_castSucc V c t, PhiS1_pos V c _ _ hz]
      iintro ⟨⟨⟨Ha0, Ha1, Ha2, Ha3, Ha4, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha0 Ha1 Ha2 Ha3 Ha4 HS0 Hg]
      · isplitl [Ha0 Ha1 Ha2 Ha3 Ha4 HS0]
        · isplitl [Ha0]; · iexact Ha0
          isplitl [Ha1]; · iexact Ha1
          isplitl [Ha2]; · iexact Ha2
          isplitl [Ha3]; · iexact Ha3
          isplitl [Ha4]; · iexact Ha4
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold accMid sout1_B_0; (try dsimp only)
      rw [PhiS1_castSucc V c t, PhiS1_pos V c _ _ hz]
      iintro ⟨⟨⟨Ha0, Ha1, Ha2, Ha3, Ha4, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha0 Ha1 Ha2 Ha3 Ha4 HS0 Hg]
      · isplitl [Ha0 Ha1 Ha2 Ha3 Ha4 HS0]
        · isplitl [Ha0]; · iexact Ha0
          isplitl [Ha1]; · iexact Ha1
          isplitl [Ha2]; · iexact Ha2
          isplitl [Ha3]; · iexact Ha3
          isplitl [Ha4]; · iexact Ha4
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨Ha0, Ha1, Ha2, Ha3, Ha4, HS0⟩, Hg⟩
  isplitl [Ha0 Ha1 Ha2 Ha3 Ha4 HS0]
  · isplitl [Ha0]; · iexact Ha0
    isplitl [Ha1]; · iexact Ha1
    isplitl [Ha2]; · iexact Ha2
    isplitl [Ha3]; · iexact Ha3
    isplitl [Ha4]; · iexact Ha4
    iexists _; iexact HS0
  iexact Hg

end

end Cert.ReferenceIdeal.RF

end
-- ==== Proof.RefRun.lean ====
/-
  The reference's run. Its @main is nine stretches of host operations (zero-width pads, a reshape, three changes of
  float format) and then the two kernel regions. The contents of the core's buffers at each boundary are a fold from the
  launch memory: a host stretch applies its operations; a region leaves its arrays at what its pipeline's write-backs
  leave and every other buffer as entered. Each region is a segment over the thread state "every unscoped buffer at the
  boundary's contents, the generator register at some state, nothing owed"; the aggregation region's invariant carries
  its accumulator between points and gives the class invariant back at its end. The run ends with every unscoped buffer
  read at the last boundary's contents.
-/
import proofs.«122544_g2000504869895307_pallasbulk_559_14_alg».proof.Proof.RefRegion0
import proofs.«122544_g2000504869895307_pallasbulk_559_14_alg».proof.Proof.RefAggBody
import proofs.«122544_g2000504869895307_pallasbulk_559_14_alg».proof.Proof.Gen.ReferenceIdeal.Regions

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- The projection region's entry contents: the launch memory after the nine host stretches, read at the core's
    references. -/
abbrev Vr0 : (c : Dev nD) → (b : Ref sig .tc) → Buf (Elt F) ((c : Thread nD τ).loc b) := fun c b => V9 m c b

/-- At region 0's exit: its arrays at what the pipeline leaves, every other buffer as entered. -/
def W10 (c : Dev nD) : Valuation τ sig (Elt F) :=
  Pipeline.withArrays spec0 c (V9 m c) fun w => (dat0 (Vr0 m) c).arrAt w cfg0.N
theorem W10_arr (c : Dev nD) (w : Fin cfg0.W) :
    W10 m c (Proc.devRef .tc (Pipeline.arrRef spec0 w)) = (dat0 (Vr0 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = V9 m c (Proc.devRef .tc b) := by
  unfold W10; exact Pipeline.withArrays_of_ne spec0 c _ _ b hb
/-- The same read at the core's references. -/
abbrev Vr1 : (c : Dev nD) → (b : Ref sig .tc) → Buf (Elt F) ((c : Thread nD τ).loc b) := fun c b => W10 m c b
theorem hF0 (c : Dev nD) (w : Fin cfg0.W) : (dat0 (Vr0 m) c).arrAt w cfg0.N = Vr1 m c (Pipeline.arrRef spec0 w) :=
  (W10_arr m c w).symm
theorem hrest0 (c : Dev nD) : ∀ b, b ∉ Finset.univ.image (Pipeline.arrRef spec0) → Vr1 m c b = Vr0 m c b :=
  fun b hb => W10_of_ne m c b fun w e => hb (Finset.mem_image.mpr ⟨w, Finset.mem_univ _, e⟩)

/-- At region 1's exit: its arrays at what the pipeline leaves, every other buffer as entered. -/
def W11 (c : Dev nD) : Valuation τ sig (Elt F) :=
  Pipeline.withArrays spec1 c (W10 m c) fun w => (dat1 (Vr1 m) c).arrAt w cfg1.N
theorem W11_arr (c : Dev nD) (w : Fin cfg1.W) :
    W11 m c (Proc.devRef .tc (Pipeline.arrRef spec1 w)) = (dat1 (Vr1 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
/-- The same read at the core's references. -/
abbrev Vr2 : (c : Dev nD) → (b : Ref sig .tc) → Buf (Elt F) ((c : Thread nD τ).loc b) := fun c b => W11 m c b
theorem hF1 (c : Dev nD) (w : Fin cfg1.W) : (dat1 (Vr1 m) c).arrAt w cfg1.N = Vr2 m c (Pipeline.arrRef spec1 w) :=
  (W11_arr m c w).symm
theorem hrest1 (c : Dev nD) : ∀ b, b ∉ Finset.univ.image (Pipeline.arrRef spec1) → Vr2 m c b = Vr1 m c b :=
  fun b hb => W11_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
/-- The last thread state without the dues: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from hout1 (Vr1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- From any memory with zero counters, every weakly fair execution of the reference's @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) := by
  refine Pipeline.θ_run_regions_kit_dev (pcfgs (F := F)) adm (pdats m) () cellOf_inj emb₁ defs₀ 𝒱₀ L lv m ρ main
    (segs m 𝒱₀ L lv E () (pdats m) (reg0 m) (reg1 m))
    (fun c Q => by
      rewrite [main_chain c, Seg.run_eq_chain,
        show (segs m 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.ReferenceIdeal.RF

end
-- ==== Proof.RefHost.lean ====
/-
  What the reference's two regions find in their arrays, in terms of the launch memory, at the ideal values.

  Before the regions the host pads each argument by zero elements on every side (the identity), reshapes the 256 biases
  to one row, and changes the adjacency, the features and the weights to a narrower float format (the identity on
  extended reals). So the projection region finds the features and the weights themselves, and the aggregation region
  the adjacency itself, the bias row, and what the projection region left.
-/
import proofs.«122544_g2000504869895307_pallasbulk_559_14_alg».proof.Proof.RefRun
import Idealize.ShloMosaic.Lib.KernelVsHost
import Idealize.ShloMosaic.Lib.Pipeline.Value
import Idealize.ShloMosaic.Lib.ValueIdx
import Idealize.ShloMosaic.Lib.StableHlo.Run

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A pad by zero elements before, after and between, of a matrix, is the matrix. -/
theorem pad_none2 {α : Type} {n0 n1 : ℕ} (x : (⟨2, ![n0, n1]⟩ : Shape).Idx → α) {u : Shape} (v : u.Idx → α)
    (h : (⟨2, ![n0, n1]⟩ : Shape).Pads ![0, 0] ![0, 0] ![0, 0] ⟨2, ![n0, n1]⟩) (hu : 0 < u.numel) :
    pad ⟨2, ![n0, n1]⟩ ![0, 0] ![0, 0] ![0, 0] x v h hu = x :=
  funext fun j => pad_apply_of_inside _ _ _ x v h hu j j (fun a => by
    match a with
    | ⟨0, _⟩ => simp
    | ⟨1, _⟩ => simp)

variable (m : (ℓ : Loc nD τ sig) → Buf (Elt Ideal) ℓ)

/-- The projection region finds the features in its first window's array. -/
theorem Vr0_v6 (c : Dev nD) : Vr0 m c main_v6 = m ((c : Thread nD τ).loc main_arg1) := by
  show StableHlo.after hostOps0_8 (V8 m c) (Proc.devRef .tc main_v6) = _
  after_results
  exact pad_none2 (n0 := 4096) (n1 := 256) (m ((c : Thread nD τ).loc main_arg1)) _ pads_S4096x256_S4096x256_000_000 h_S_

/-- The projection region finds the weights in its second window's array. -/
theorem Vr0_v7 (c : Dev nD) : Vr0 m c main_v7 = m ((c : Thread nD τ).loc main_arg2) := by
  show StableHlo.after hostOps0_8 (V8 m c) (Proc.devRef .tc main_v7) = _
  after_results
  exact pad_none2 (n0 := 256) (n1 := 256) (m ((c : Thread nD τ).loc main_arg2)) _ pads_S256x256_S256x256_000_000 h_S_

/-- After the host stretches the adjacency's buffer of the narrower format holds the adjacency. -/
theorem V9_v5 (c : Dev nD) : V9 m c main_v5 = m ((c : Thread nD τ).loc main_arg0) := by
  show StableHlo.after hostOps0_8 (V8 m c) (Proc.devRef .tc main_v5) = _
  after_results
  exact pad_none2 (n0 := 4096) (n1 := 4096) (m ((c : Thread nD τ).loc main_arg0)) _ pads_S4096x4096_S4096x4096_000_000 h_S_

/-- After the host stretches the bias row's buffer holds the biases reshaped to one row. -/
theorem V9_v4 (c : Dev nD) : V9 m c main_v4 = shapeCast S1x256 (m ((c : Thread nD τ).loc main_arg3)) shapeCasts_S256_S1x256 := by
  show StableHlo.after hostOps0_8 (V8 m c) (Proc.devRef .tc main_v4) = _
  after_results
  exact pad_none2 (n0 := 1) (n1 := 256) (shapeCast S1x256 (m ((c : Thread nD τ).loc main_arg3)) shapeCasts_S256_S1x256) _ pads_S1x256_S1x256_000_000 h_S_

/-- The aggregation region finds the adjacency in its first window's array: the projection region does not touch it. -/
theorem Vr1_v5 (c : Dev nD) : Vr1 m c main_v5 = m ((c : Thread nD τ).loc main_arg0) :=
  (W10_of_ne m c main_v5 (by decide)).trans (V9_v5 m c)

/-- It finds the bias row in its third window's array. -/
theorem Vr1_v4 (c : Dev nD) : Vr1 m c main_v4 = shapeCast S1x256 (m ((c : Thread nD τ).loc main_arg3)) shapeCasts_S256_S1x256 :=
  (W10_of_ne m c main_v4 (by decide)).trans (V9_v4 m c)

/-- It finds in its second window's array what the projection region's write-backs left. -/
theorem Vr1_v8 (c : Dev nD) : Vr1 m c main_v8 = (dat0 (Vr0 m) c).arrAt 2 cfg0.N :=
  W10_arr m c 2

/-- After the run the result's buffer holds what the aggregation region's write-backs left. -/
theorem W11_v9 (c : Dev nD) : W11 m c (Proc.devRef .tc main_v9) = (dat1 (Vr1 m) c).arrAt 3 cfg1.N :=
  W11_arr m c 3

/-- No host stretch writes an argument and no region has one among its arrays: the arguments end as launched. -/
theorem W11_arg0 (c : Dev nD) : W11 m c (Proc.devRef .tc main_arg0) = m ((c : Thread nD τ).loc main_arg0) :=
  (W11_of_ne m c main_arg0 (by decide)).trans <| (W10_of_ne m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem W11_arg1 (c : Dev nD) : W11 m c (Proc.devRef .tc main_arg1) = m ((c : Thread nD τ).loc main_arg1) :=
  (W11_of_ne m c main_arg1 (by decide)).trans <| (W10_of_ne m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem W11_arg2 (c : Dev nD) : W11 m c (Proc.devRef .tc main_arg2) = m ((c : Thread nD τ).loc main_arg2) :=
  (W11_of_ne m c main_arg2 (by decide)).trans <| (W10_of_ne m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem W11_arg3 (c : Dev nD) : W11 m c (Proc.devRef .tc main_arg3) = m ((c : Thread nD τ).loc main_arg3) :=
  (W11_of_ne m c main_arg3 (by decide)).trans <| (W10_of_ne m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

end Cert.ReferenceIdeal.RF

end
-- ==== Proof.RefProjValue.lean ====
/-
  The value of the projection region: the projected features as one function of the features and the weights.

  The region runs over sixteen points. Point t loads rows 256·t … 256·t+255 of the features X (a 256 × 256 block)
  and the whole 256 × 256 weight matrix W, multiplies the two blocks into a zero accumulator, and writes the
  product back to the same rows of the output. At the ideal values a product into a zero accumulator is the
  textbook one, entry (p, q) being Σ_l (block of X)(p, l) · W(l, q), and narrowing the element type changes no value.
  Entry (p, q) of point t's block is row 256·t + p of the array, so what point t writes back is its block of

      P(r, j) = Σ_{l < 256} X(r, l) · W(l, j),

  one function of the whole arrays. Row r lies in the block of point r / 256, so the sixteen blocks cover the
  output, and the array the region leaves is P.
-/
import proofs.«122544_g2000504869895307_pallasbulk_559_14_alg».proof.Proof.RefRegion0
import proofs.«122544_g2000504869895307_pallasbulk_559_14_alg».proof.Proof.Spec
import proofs.«122544_g2000504869895307_pallasbulk_559_14_alg».proof.Proof.LibPlainDot
import Idealize.ShloMosaic.Lib.Pipeline.Value
import Idealize.ShloMosaic.Lib.ValueIdx

set_option maxRecDepth 16384

noncomputable section

open scoped BigOperators

namespace Cert.ReferenceIdeal.RF

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

/-! ## The product of two blocks, entry by entry -/

/-- The offsets of the whole-block rectangle are zero on both axes. -/
theorem zero_offsets : (![0, 0] : Fin 2 → Nat) = fun _ => 0 := funext fun a => by fin_cases a <;> rfl

/-- What the body leaves in the output block, at entry (p, q): the row p of the first block against the
    column q of the second. The one store covers the block, the loads read the blocks whole, reshaping a block
    to its own shape and narrowing an ideal value change nothing, and the product into the zero accumulator is
    the sum over the contracted position. -/
theorem proj_block_apply (x0 x1 : Vec Ideal S256x256 .bf16) (p q : Fin 256) :
    out0_2 (F := Ideal) x0 x1 (ix2 p q) = ∑ l : Fin 256, x0 (ix2 p l) * x1 (ix2 l q) := by
  unfold out0_2
  rw [View.canon_unit_zero zero_offsets]
  simp only [View.ld_unit_zero (S := S256x256) zero_offsets]
  unfold k0_pay1
  simp only [shapeCast_self]
  exact (truncf_apply _ bitsLt_bf16_f32 _).trans (LibPlainDot.matmul_zero_apply none x0 x1 p q)

/-- The same at any index of the block, split into its row and its column. -/
theorem proj_block_entry (x0 x1 : Vec Ideal S256x256 .bf16) (y : S256x256.Idx) :
    out0_2 (F := Ideal) x0 x1 y = ∑ l : Fin 256, x0 (ix2 (y 0) l) * x1 (ix2 l (y 1)) :=
  (congrArg (out0_2 (F := Ideal) x0 x1) (eq_ix2 y)).trans (proj_block_apply x0 x1 (y 0) (y 1))

/-! ## The projected features as one function of the whole arrays -/

/-- P(r, j) = Σ_{l < 256} X(r, l) · W(l, j). -/
def proj (X : S4096x256.Idx → EReal) (W : S256x256.Idx → EReal) : S4096x256.Idx → EReal :=
  fun i => ∑ l : Fin 256, X (ix2 (i 0) l) * W (ix2 l (i 1))

/-- It is the specification's projected features. -/
theorem proj_eq_xw (X : S4096x256.Idx → EReal) (W : S256x256.Idx → EReal) (i : S4096x256.Idx) :
    proj X W i = Cert.GcnSpec.xw X W (i 0) (i 1) := rfl

/-! ## Where each block sits in its array -/

/-- The block indices at point t, decided over the sixteen points: the features' and the output's block is
    (t, 0), the weights' is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, l) of the features' block at point t is entry (256·t + p, l) of the features: a block's coordinate
    is its block index times the block's size plus the coordinate inside the block. -/
theorem feat_block_apply (c : Dev nD) (t : Fin cfg0.N) (x : S256x256.Idx) (k : S4096x256.Idx)
    (hk0 : (k 0).val = 256 * t.val + (x 0).val) (hk1 : (k 1).val = (x 1).val) :
    (iblk0 V c 0 t : Vec Ideal S256x256 .bf16) x = (V c main_v6 : S4096x256.Idx → EReal) k := by
  obtain ⟨e0, e1, -, -, -, -⟩ := idx_facts0 t
  unfold iblk0
  rw [View.read_apply]
  show V c main_v6 _ = V c main_v6 _
  refine congrArg (V c main_v6) (funext fun a => Fin.ext ?_)
  match a with
  | ⟨0, _⟩ => show win0_0.index t (0 : Fin 2) * 256 + 1 * (x 0).val = (k 0).val; rw [e0, hk0]; omega
  | ⟨1, _⟩ => show win0_0.index t (1 : Fin 2) * 256 + 1 * (x 1).val = (k 1).val; rw [e1, hk1]; omega

/-- The weights' block at every point is the whole weight matrix. -/
theorem weight_block_apply (c : Dev nD) (t : Fin cfg0.N) (x : S256x256.Idx) :
    (iblk0 V c 1 t : Vec Ideal S256x256 .bf16) x = (V c main_v7 : S256x256.Idx → EReal) x := by
  obtain ⟨-, -, e0, e1, -, -⟩ := idx_facts0 t
  unfold iblk0
  rw [View.read_apply]
  show V c main_v7 _ = V c main_v7 _
  refine congrArg (V c main_v7) (funext fun a => Fin.ext ?_)
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The product of point t's blocks at entry y is P at the entry of the array that y is: row 256·t + y₀,
    column y₁. Term by term the block of the features reads that row and the weights are read whole. -/
theorem proj_block_eq (c : Dev nD) (t : Fin cfg0.N) (y : S256x256.Idx) (i : S4096x256.Idx)
    (h0 : (i 0).val = 256 * t.val + (y 0).val) (h1 : (i 1).val = (y 1).val) :
    out0_2 (F := Ideal) (iblk0 V c 0 t) (iblk0 V c 1 t) y = proj (V c main_v6) (V c main_v7) i := by
  refine (proj_block_entry (iblk0 V c 0 t) (iblk0 V c 1 t) y).trans ?_
  refine Finset.sum_congr rfl fun l _ => ?_
  have ef := feat_block_apply V c t (ix2 (y 0) l) (ix2 (i 0) l) h0 rfl
  have ew := weight_block_apply V c t (ix2 l (y 1))
  have eq : (ix2 l (y 1) : S256x256.Idx) = ix2 l (i 1) := by
    funext a; match a with | ⟨0, _⟩ => rfl | ⟨1, _⟩ => exact Fin.ext h1.symm
  rw [ef, ew, eq]
  rfl

/-! ## From the blocks to the array -/

/-- What point t writes back is its block of P: the output's block at t is at block index (t, 0), the same
    rows as the features' block. -/
theorem proj_flushed_eq (c : Dev nD) (t : Fin cfg0.N) :
    (dat0 (F := Ideal) V c).flushed 2 t = ((cfg0.win 2).blk t).view.read (Elt Ideal) (proj (V c main_v6) (V c main_v7)) := by
  show (cfg0.win 2).cut (grid0.coords t) ((dat0 V c).after 2 t) = _
  rw [after0_2]
  obtain ⟨-, -, -, -, e0, e1⟩ := idx_facts0 t
  refine funext fun (y : S256x256.Idx) => ?_
  rw [View.read_apply]
  refine proj_block_eq V c t y _ ?_ ?_
  · show win0_2.index t (0 : Fin 2) * 256 + 1 * (y 0).val = 256 * t.val + (y 0).val
    rw [e0]; omega
  · show win0_2.index t (1 : Fin 2) * 256 + 1 * (y 1).val = (y 1).val
    rw [e1]; omega

/-- An index of the output is in point t's block iff each coordinate is in the block's range on its axis. -/
theorem proj_mem_blk (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v8).slice (win0_2.rect t)).set ↔ _
  rw [View.set_slice_whole, Rect.mem_set_unit]
  exact Iff.rfl

/-- Every index of the output is in some point's block: row r in the block of point r / 256. Every point
    writes its block back. -/
theorem proj_cover (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, e0, e1⟩ := idx_facts0 t
  refine ⟨t, flush0_2 t, ?_⟩
  rw [proj_mem_blk]
  intro a
  match a with
  | ⟨0, _⟩ => show win0_2.index t (0 : Fin 2) * 256 ≤ (i 0).val ∧ (i 0).val < win0_2.index t (0 : Fin 2) * 256 + 256; rw [e0, ht]; omega
  | ⟨1, _⟩ => show win0_2.index t (1 : Fin 2) * 256 ≤ (i 1).val ∧ (i 1).val < win0_2.index t (1 : Fin 2) * 256 + 256; rw [e1]; omega

/-- THE PROJECTED FEATURES after the region: entry (r, j) is Σ_{l < 256} X(r, l) · W(l, j), for X the features and
    W the weights as the region finds them. -/
theorem proj_final (V : (c : Dev nD) → (b : Ref sig .tc) → Buf (Elt Ideal) ((c : Thread nD τ).loc b)) (c : Dev nD)
    (X : S4096x256.Idx → EReal) (W : S256x256.Idx → EReal)
    (hX : (V c main_v6 : S4096x256.Idx → EReal) = X) (hW : (V c main_v7 : S256x256.Idx → EReal) = W) :
    ((dat0 (F := Ideal) V c).arrAt 2 cfg0.N : S4096x256.Idx → EReal) = fun i => ∑ l : Fin 256, X (ValueIdx.ix2 (i 0) l) * W (ValueIdx.ix2 l (i 1)) := by
  subst hX; subst hW
  exact (dat0 (F := Ideal) V c).arrAt_eq_of_cover 2 (proj (V c main_v6) (V c main_v7)) (fun t _ => proj_flushed_eq V c t) proj_cover

end Cert.ReferenceIdeal.RF

end
-- ==== Proof.RefAggValue.Pieces.lean ====
/-
  What each control case of the aggregation body leaves, as the body's arithmetic applied to the point's input blocks:
  the stores the run found, read back. At a row's first tile the accumulator ends at the zero block plus the tile's
  product; at every other tile at what it held plus the tile's product; and at a row's last tile the output window's
  buffer ends at that new accumulator with the bias row added to every row and clipped at zero. Stated first over
  arbitrary whole memrefs and contents, then at a grid point over the point's memrefs and input blocks.
-/
import proofs.«122544_g2000504869895307_pallasbulk_559_14_alg».proof.Proof.RefAggData
import Idealize.ShloMosaic.Lib.Pipeline.Value
import Idealize.ShloMosaic.Lib.Tactic

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block load or store. -/
theorem hz2 : (![0, 0] : Fin 2 → Nat) = fun _ => 0 := funext fun a => by fin_cases a <;> rfl

/-- At a row's first tile the accumulator is left at the zero block plus the tile's product: the second store's
    payload, whose accumulator operand is the first store (the zero block) read back. -/
theorem accA_eq (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i) (x0 : Vec F S256x256 .bf16) (x1 : Vec F S256x256 .bf16) (x2 : Vec F S1x256 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S256x256) hz2, View.readCov_unit_zero (S := S256x256) _ hz2]
  simp only [View.readAt_eq_ld, harg2.read_unread, harg3.read_unread, View.ld_unit_zero (S := S256x256) hz2]

/-- At a middle tile the accumulator is left at what it held plus the tile's product. -/
theorem accB_eq (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i) (x0 : Vec F S256x256 .bf16) (x1 : Vec F S256x256 .bf16) (x2 : Vec F S1x256 .f32) (xs0 : Vec F S256x256 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero hz2]
  simp only [View.readAt_eq_ld, harg2.read_unread, harg3.read_unread, harg6.read_unread, View.ld_unit_zero (S := S256x256) hz2]

/-- At a row's last tile likewise, -/
theorem accC_eq (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x256 .bf16) (x1 : Vec F S256x256 .bf16) (x2 : Vec F S1x256 .f32) (xs0 : Vec F S256x256 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg6.read_unread, View.ld_unit_zero (S := S256x256) hz2]

/-- and the output window's buffer is left at the new accumulator (the store read back) with the bias row added to
    every row and clipped at zero. -/
theorem outC_eq (c : Dev nD) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i) (x0 : Vec F S256x256 .bf16) (x1 : Vec F S256x256 .bf16) (x2 : Vec F S1x256 .f32) (xs0 : Vec F S256x256 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2, View.readCov_unit_zero (S := S256x256) _ hz2]
  simp only [View.readAt_eq_ld, harg2.read_unread, harg3.read_unread, harg4.read_unread, harg6.read_unread, View.ld_unit_zero (S := S256x256) hz2, View.ld_unit_zero (S := S1x256) hz2]

/-! ## At a grid point -/

section
variable (V : (c : Dev nD) → (b : Ref sig .tc) → Buf (Elt F) ((c : Thread nD τ).loc b))

theorem accFirst_eq (c : Dev nD) (t : Fin cfg1.N) (h0 : t.val % 16 = 0) :
    accFirst V c t h0 = k1_pay2 (k1_pay1 (F := F)) (iblk1 V c 0 t) (iblk1 V c 1 t) :=
  accA_eq c (grid1.coords t) (ms1_0 t) (hs1_0 t) (ms1_1 t) (hs1_1 t) (ms1_2 t) (hs1_2 t) (ms1_3 t) (hs1_3 t) scM1_0 (Memref.isWhole_whole _)
    ((hcond1_0 t).mpr h0) (not_last_of_first t h0) (iblk1 V c 0 t) (iblk1 V c 1 t) (iblk1 V c 2 t)

theorem accMid_eq (c : Dev nD) (t : Fin cfg1.N) (h0 : ¬t.val % 16 = 0) (h1 : ¬t.val % 16 = 15) (xs0 : Vec F S256x256 .f32) :
    accMid V c t h0 h1 xs0 = k1_pay2 xs0 (iblk1 V c 0 t) (iblk1 V c 1 t) :=
  accB_eq c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) (fun h => h1 ((hcond1_1 t).mp h)) (iblk1 V c 0 t) (iblk1 V c 1 t) (iblk1 V c 2 t) xs0

theorem accLast_eq (c : Dev nD) (t : Fin cfg1.N) (h0 : ¬t.val % 16 = 0) (h1 : t.val % 16 = 15) (xs0 : Vec F S256x256 .f32) :
    accLast V c t h0 h1 xs0 = k1_pay2 xs0 (iblk1 V c 0 t) (iblk1 V c 1 t) :=
  accC_eq c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr h1) (iblk1 V c 0 t) (iblk1 V c 1 t) (iblk1 V c 2 t) xs0

theorem outLast_eq (c : Dev nD) (t : Fin cfg1.N) (h0 : ¬t.val % 16 = 0) (h1 : t.val % 16 = 15) (xs0 : Vec F S256x256 .f32) :
    outLast V c t h0 h1 xs0 = k1_pay3 (k1_pay2 xs0 (iblk1 V c 0 t) (iblk1 V c 1 t)) (iblk1 V c 2 t) :=
  outC_eq c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr h1) (iblk1 V c 0 t) (iblk1 V c 1 t) (iblk1 V c 2 t) xs0

end

end Cert.ReferenceIdeal.RF

end
-- ==== Proof.RefAggValue.Payloads.lean ====
/-
  The aggregation body's arithmetic read at an entry, over the extended reals: the block a row's first tile resets the
  accumulator to is zero; a tile's step adds to entry (p, q) of the accumulator the sum over l of the adjacency tile's
  (p, l) times the feature tile's (l, q) — a change of float format is the identity here and a cast to the same shape
  is the identity everywhere —; the last tile's result adds the bias row's entry q and clips at zero.
-/
import proofs.«122544_g2000504869895307_pallasbulk_559_14_alg».proof.Proof.Gen.ReferenceIdeal.Skeleton
import proofs.«122544_g2000504869895307_pallasbulk_559_14_alg».proof.Proof.LibPlainDot
import Idealize.ShloMosaic.Lib.ValueLayout

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The printed dimension numbers are those of the plain 256 × 256 by 256 × 256 product. -/
theorem dot_plain : dot_S256x256_S256x256_S256x256_1_0_0_1_n_n = DotDims.plain 256 256 256 := rfl

/-- The block the first tile resets the accumulator to is zero everywhere. -/
theorem pay1_apply (p q : Fin 256) : (k1_pay1 (F := Ideal) (ix2 p q) : EReal) = 0 := by
  unfold k1_pay1
  rw [shapeCast_self]
  exact Ideal.ofBits_zero_f32

/-- A tile's step: the accumulator plus the product of the adjacency tile and the feature tile, entry by entry. -/
theorem pay2_apply (v3 : Vec Ideal S256x256 .f32) (v4 : Vec Ideal S256x256 .bf16) (v6 : Vec Ideal S256x256 .bf16) (p q : Fin 256) :
    (k1_pay2 v3 v4 v6 (ix2 p q) : EReal) = v3 (ix2 p q) + ∑ l : Fin 256, v4 (ix2 p l) * v6 (ix2 l q) := by
  unfold k1_pay2
  rw [shapeCast_self, shapeCast_self, shapeCast_self, dot_plain]
  exact congrArg (v3 (ix2 p q) + ·) (Cert.LibPlainDot.matmul_zero_apply none v4 v6 p q)

/-- The last tile's result: the accumulator plus the bias row, clipped at zero. -/
theorem pay3_apply (v16 : Vec Ideal S256x256 .f32) (v17 : Vec Ideal S1x256 .f32) (p q : Fin 256) :
    (k1_pay3 v16 v17 (ix2 p q) : EReal) = max (v16 (ix2 p q) + v17 (ix2 (0 : Fin 1) q)) 0 := by
  unfold k1_pay3
  rw [shapeCast_self]
  show max (v16 (ix2 p q) + broadcastTo S256x256 v17 broadcasts_S1x256_S256x256 (ix2 p q)) (Ideal.ofBits .f32 0x00000000#32) = _
  rw [broadcastTo_1b_ab_apply, Ideal.ofBits_zero_f32]

end Cert.ReferenceIdeal.RF

end
-- ==== Proof.RefAggValue.Blocks.lean ====
/-
  Where the aggregation region's input blocks sit in their arrays. Grid point t = 16·i + k has row tile i = t / 16 and
  column tile k = t % 16. The adjacency window's block there is rows 256·i … 256·i + 255, columns 256·k … 256·k + 255 of
  the adjacency; the feature window's is rows 256·k … 256·k + 255 of the projected features; the bias window's is the
  whole bias row. A block's coordinate in the array is always block index × block size + the coordinate inside it.
-/
import proofs.«122544_g2000504869895307_pallasbulk_559_14_alg».proof.Proof.RefAgg
import Idealize.ShloMosaic.Lib.Pipeline.Value
import Idealize.ShloMosaic.Lib.ValueIdx

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The printed index maps over the grid: point t = 16·i + k is row tile i = t / 16, column tile k = t % 16 -/

/-- The adjacency window's block index at a point is (row tile, column tile); -/
theorem idx1_0 : ∀ t : Fin cfg1.N, win1_0.index t (0 : Fin 2) = t.val / 16 ∧ win1_0.index t (1 : Fin 2) = t.val % 16 :=
  (by decide +kernel : ∀ t : Fin grid1.N, win1_0.index t (0 : Fin 2) = t.val / 16 ∧ win1_0.index t (1 : Fin 2) = t.val % 16)
/-- the feature window's is (column tile, 0); -/
theorem idx1_1 : ∀ t : Fin cfg1.N, win1_1.index t (0 : Fin 2) = t.val % 16 ∧ win1_1.index t (1 : Fin 2) = 0 :=
  (by decide +kernel : ∀ t : Fin grid1.N, win1_1.index t (0 : Fin 2) = t.val % 16 ∧ win1_1.index t (1 : Fin 2) = 0)
/-- the bias window's is (0, 0); -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- the result window's is (row tile, 0). -/
theorem idx1_3 : ∀ t : Fin cfg1.N, win1_3.index t (0 : Fin 2) = t.val / 16 ∧ win1_3.index t (1 : Fin 2) = 0 :=
  (by decide +kernel : ∀ t : Fin grid1.N, win1_3.index t (0 : Fin 2) = t.val / 16 ∧ win1_3.index t (1 : Fin 2) = 0)

/-! ## The input blocks read where their rectangles say -/

section
variable {F : FTy → Type} [FloatOps F]
variable (V : (c : Dev nD) → (b : Ref sig .tc) → Buf (Elt F) ((c : Thread nD τ).loc b))

/-- Entry (p, l) of the adjacency block at a point is the adjacency at row 256·(t / 16) + p, column 256·(t % 16) + l. -/
theorem iblk0_apply (c : Dev nD) (t : Fin cfg1.N) (p l : Fin 256) (k : S4096x4096.Idx)
    (hk0 : (k 0).val = 256 * (t.val / 16) + p.val) (hk1 : (k 1).val = 256 * (t.val % 16) + l.val) :
    (iblk1 V c 0 t : Vec F S256x256 .bf16) (ix2 p l) = (V c main_v5 : S4096x4096.Idx → Elt F .bf16) k := by
  obtain ⟨e0, e1⟩ := idx1_0 t
  unfold iblk1
  rw [View.read_apply]
  show V c main_v5 _ = V c main_v5 _
  refine congrArg (V c main_v5) (funext fun a => Fin.ext ?_)
  match a with
  | ⟨0, _⟩ => show win1_0.index t 0 * 256 + 1 * p.val = (k 0).val; rw [e0, hk0]; omega
  | ⟨1, _⟩ => show win1_0.index t 1 * 256 + 1 * l.val = (k 1).val; rw [e1, hk1]; omega

/-- Entry (l, q) of the feature block at a point is the projected features at row 256·(t % 16) + l, column q. -/
theorem iblk1_apply (c : Dev nD) (t : Fin cfg1.N) (l q : Fin 256) (k : S4096x256.Idx)
    (hk0 : (k 0).val = 256 * (t.val % 16) + l.val) (hk1 : (k 1).val = q.val) :
    (iblk1 V c 1 t : Vec F S256x256 .bf16) (ix2 l q) = (V c main_v8 : S4096x256.Idx → Elt F .bf16) k := by
  obtain ⟨e0, e1⟩ := idx1_1 t
  unfold iblk1
  rw [View.read_apply]
  show V c main_v8 _ = V c main_v8 _
  refine congrArg (V c main_v8) (funext fun a => Fin.ext ?_)
  match a with
  | ⟨0, _⟩ => show win1_1.index t 0 * 256 + 1 * l.val = (k 0).val; rw [e0, hk0]; omega
  | ⟨1, _⟩ => show win1_1.index t 1 * 256 + 1 * q.val = (k 1).val; rw [e1, hk1]; omega

/-- The bias block at every point is the whole bias row. -/
theorem iblk2_apply (c : Dev nD) (t : Fin cfg1.N) (q : Fin 256) :
    (iblk1 V c 2 t : Vec F S1x256 .f32) (ix2 (0 : Fin 1) q) = (V c main_v4 : S1x256.Idx → Elt F .f32) (ix2 (0 : Fin 1) q) := by
  obtain ⟨e0, e1⟩ := idx1_2 t
  unfold iblk1
  rw [View.read_apply]
  show V c main_v4 _ = V c main_v4 _
  refine congrArg (V c main_v4) (funext fun a => Fin.ext ?_)
  match a with
  | ⟨0, _⟩ => show win1_2.index t 0 * 1 + 1 * 0 = 0; rw [e0]
  | ⟨1, _⟩ => show win1_2.index t 1 * 256 + 1 * q.val = q.val; rw [e1]; omega

end

end Cert.ReferenceIdeal.RF

end
-- ==== Proof.RefAggValue.Invariant.lean ====
/-
  The accumulator of the aggregation region after every grid point, over the extended reals.

  Write a(r, k) for the adjacency and h(k, j) for the projected features as the region finds them. Tile kb of the 4096
  positions is positions 256·kb … 256·kb + 255. The product of adjacency tile (i, kb) with feature tile kb is, at entry
  (p, q), the sum over the tile's positions l of a(256·i + p, 256·kb + l) · h(256·kb + l, q). After point t = 16·i + k
  the accumulator holds, at (p, q), the sum of these products over the tiles kb = 0 … k: at k = 0 it is zero plus the
  first product, and every later point adds its own product to what the point before left. At a row's last tile
  (k = 15) the output window's buffer holds that sum over all sixteen tiles, plus the bias's entry q, clipped at zero.
-/
import proofs.«122544_g2000504869895307_pallasbulk_559_14_alg».proof.Proof.RefAggValue.Pieces
import proofs.«122544_g2000504869895307_pallasbulk_559_14_alg».proof.Proof.RefAggValue.Payloads
import proofs.«122544_g2000504869895307_pallasbulk_559_14_alg».proof.Proof.RefAggValue.Blocks

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- Position l of tile kb among the 4096 positions (the tile read modulo 16, so that the function is total). -/
def posAt (kb : ℕ) (l : Fin 256) : Fin 4096 :=
  ⟨kb % 16 * 256 + l.val, by have := Nat.mod_lt kb (by decide : 0 < 16); have := l.isLt; omega⟩

/-- The product of adjacency tile (i, kb) and feature tile kb at entry (p, q). -/
def tileTerm (A : S4096x4096.Idx → EReal) (XW : S4096x256.Idx → EReal) (i kb : ℕ) (p q : Fin 256) : EReal :=
  ∑ l : Fin 256, A (ix2 (posAt i p) (posAt kb l)) * XW (ix2 (posAt kb l) q)

section
variable (V : (c : Dev nD) → (b : Ref sig .tc) → Buf (Elt Ideal) ((c : Thread nD τ).loc b))

/-- The product of the two input blocks at point t is the product of adjacency tile (t / 16, t % 16) and feature
    tile t % 16. -/
theorem tile_at (c : Dev nD) (t : Fin cfg1.N) (p q : Fin 256) (b0 b1 : Vec Ideal S256x256 .bf16)
    (hb0 : b0 = iblk1 V c 0 t) (hb1 : b1 = iblk1 V c 1 t) :
    (∑ l : Fin 256, b0 (ix2 p l) * b1 (ix2 l q) : EReal)
      = tileTerm (V c main_v5) (V c main_v8) (t.val / 16) (t.val % 16) p q := by
  have hN : t.val < 256 := Nat.lt_of_lt_of_eq t.isLt N_1
  subst hb0 hb1
  refine Finset.sum_congr rfl fun l _ => ?_
  rw [iblk0_apply V c t p l (ix2 (posAt (t.val / 16) p) (posAt (t.val % 16) l))
        (by show t.val / 16 % 16 * 256 + p.val = _; omega) (by show t.val % 16 % 16 * 256 + l.val = _; omega),
      iblk1_apply V c t l q (ix2 (posAt (t.val % 16) l) q) (by show t.val % 16 % 16 * 256 + l.val = _; omega) rfl]

/-- THE INVARIANT. After point n the accumulator holds, at (p, q), the products of the tiles 0 … n % 16 of row tile
    n / 16, summed: by induction on the point, a row's first tile starting from zero and every other point adding its
    product to what the point before left. -/
theorem acc_eq (c : Dev nD) : ∀ (n : ℕ) (hn : n < cfg1.N) (p q : Fin 256),
    ((outsAt1 V c n hn).2 (ix2 p q) : EReal)
      = ∑ kb ∈ Finset.range (n % 16 + 1), tileTerm (V c main_v5) (V c main_v8) (n / 16) kb p q := by
  intro n
  induction n using Nat.strong_induction_on with
  | _ n ih =>
    intro hn p q
    have hN : n < 256 := Nat.lt_of_lt_of_eq hn N_1
    rw [Finset.sum_range_succ]
    by_cases h0 : n % 16 = 0
    · rw [outsAt1_A V c ⟨n, hn⟩ h0]
      dsimp only
      refine (congrFun (accFirst_eq V c ⟨n, hn⟩ h0) (ix2 p q)).trans ?_
      refine (pay2_apply (k1_pay1 (F := Ideal)) (iblk1 V c 0 ⟨n, hn⟩) (iblk1 V c 1 ⟨n, hn⟩) p q).trans ?_
      rw [pay1_apply, h0, Finset.sum_range_zero]
      exact congrArg (fun x : EReal => 0 + x) ((tile_at V c ⟨n, hn⟩ p q _ _ rfl rfl).trans (by show tileTerm _ _ (n / 16) (n % 16) p q = _; rw [h0]))
    · have hlt : n - 1 < cfg1.N := Nat.lt_of_le_of_lt (Nat.sub_le _ _) hn
      have ihp := ih (n - 1) (by omega) hlt p q
      have e1 : (n - 1) % 16 + 1 = n % 16 := by omega
      have e2 : (n - 1) / 16 = n / 16 := by omega
      rw [e1, e2] at ihp
      by_cases h1 : n % 16 = 15
      · rw [outsAt1_C V c ⟨n, hn⟩ h0 h1]
        dsimp only
        refine (congrFun (accLast_eq V c ⟨n, hn⟩ h0 h1 (outsAt1 V c (n - 1) hlt).2) (ix2 p q)).trans ?_
        refine (pay2_apply (outsAt1 V c (n - 1) hlt).2 (iblk1 V c 0 ⟨n, hn⟩) (iblk1 V c 1 ⟨n, hn⟩) p q).trans ?_
        exact congrArg₂ (fun x y : EReal => x + y) ihp (tile_at V c ⟨n, hn⟩ p q _ _ rfl rfl)
      · rw [outsAt1_B V c ⟨n, hn⟩ h0 h1]
        dsimp only
        refine (congrFun (accMid_eq V c ⟨n, hn⟩ h0 h1 (outsAt1 V c (n - 1) hlt).2) (ix2 p q)).trans ?_
        refine (pay2_apply (outsAt1 V c (n - 1) hlt).2 (iblk1 V c 0 ⟨n, hn⟩) (iblk1 V c 1 ⟨n, hn⟩) p q).trans ?_
        exact congrArg₂ (fun x y : EReal => x + y) ihp (tile_at V c ⟨n, hn⟩ p q _ _ rfl rfl)

/-- At a row's last tile the output window's buffer holds, at (p, q), the sum of all sixteen tiles' products plus
    the bias's entry q, clipped at zero. -/
theorem out_eq (c : Dev nD) (t : Fin cfg1.N) (h1 : t.val % 16 = 15) (p q : Fin 256) :
    ((outsAt1 V c t.val t.isLt).1 (ix2 p q) : EReal)
      = max ((∑ kb ∈ Finset.range 16, tileTerm (V c main_v5) (V c main_v8) (t.val / 16) kb p q)
          + (V c main_v4 : S1x256.Idx → EReal) (ix2 (0 : Fin 1) q)) 0 := by
  have h0 : ¬t.val % 16 = 0 := by omega
  have hlt : t.val - 1 < cfg1.N := Nat.lt_of_le_of_lt (Nat.sub_le _ _) t.isLt
  have hacc := acc_eq V c t.val t.isLt p q
  have e16 : t.val % 16 + 1 = 16 := by omega
  rw [e16, outsAt1_C V c t h0 h1] at hacc
  rw [outsAt1_C V c t h0 h1]
  dsimp only at hacc ⊢
  refine (congrFun (outLast_eq V c t h0 h1 (outsAt1 V c (t.val - 1) hlt).2) (ix2 p q)).trans ?_
  refine (pay3_apply (k1_pay2 (outsAt1 V c (t.val - 1) hlt).2 (iblk1 V c 0 t) (iblk1 V c 1 t)) (iblk1 V c 2 t) p q).trans ?_
  rw [iblk2_apply V c t q]
  refine congrArg (fun x : EReal => max (x + (V c main_v4 : S1x256.Idx → EReal) (ix2 (0 : Fin 1) q)) 0) ?_
  exact (congrFun (accLast_eq V c t h0 h1 (outsAt1 V c (t.val - 1) hlt).2) (ix2 p q)).symm.trans hacc

end

end Cert.ReferenceIdeal.RF

end
-- ==== Proof.RefAggValue.lean ====
/-
  The value of the aggregation region at the extended reals: its result array, as one function of the adjacency, the
  projected features and the bias as the region finds them.

  The region's 256 grid points t = 16·i + k run over row tiles i and column tiles k. The accumulator after point t
  holds the sum of the tile products k' ≤ k of row tile i; the result window is written back at k = 15 only, where its
  buffer holds the sum over all sixteen tiles — which is the whole sum over the 4096 positions, a finite sum in a
  commutative monoid being free to group — plus the bias, clipped at zero. Row r of the result is covered by the
  flushing point 16·(r / 256) + 15, so the array ends holding the layer's function everywhere.
-/
import proofs.«122544_g2000504869895307_pallasbulk_559_14_alg».proof.Proof.RefAggValue.Invariant
import proofs.«122544_g2000504869895307_pallasbulk_559_14_alg».proof.Proof.Spec

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The aggregation layer as one function of the adjacency a, the projected features h and the bias b: entry (r, j)
    is max (Σ_k a(r, k) · h(k, j) + b(0, j), 0). -/
def aggG (A : S4096x4096.Idx → EReal) (XW : S4096x256.Idx → EReal) (B : S1x256.Idx → EReal) : S4096x256.Idx → EReal :=
  fun i => max ((∑ k : Fin 4096, A (ix2 (i 0) k) * XW (ix2 k (i 1))) + B (ix2 (0 : Fin 1) (i 1))) 0

/-- The sixteen tiles' products, summed, are the whole sum over the 4096 positions: a finite sum may be grouped at
    will in a commutative monoid. -/
theorem tiles_sum (A : S4096x4096.Idx → EReal) (XW : S4096x256.Idx → EReal) (i : ℕ) (p q : Fin 256) :
    ∑ kb ∈ Finset.range 16, tileTerm A XW i kb p q = ∑ k : Fin 4096, A (ix2 (posAt i p) k) * XW (ix2 k q) := by
  unfold tileTerm
  rw [Cert.GcnSpec.sum_tiles (fun k => A (ix2 (posAt i p) k) * XW (ix2 k q)), Finset.sum_range]
  refine Finset.sum_congr rfl fun kb _ => Finset.sum_congr rfl fun l _ => ?_
  have e : posAt kb.val l = Cert.GcnSpec.tilePos kb l :=
    Fin.ext (by show kb.val % 16 * 256 + l.val = kb.val * 256 + l.val; rw [Nat.mod_eq_of_lt kb.isLt])
  rw [e]

section
variable (V : (c : Dev nD) → (b : Ref sig .tc) → Buf (Elt Ideal) ((c : Thread nD τ).loc b))

/-- WHAT A FLUSHING POINT WRITES BACK. The result window is written back at the last tile of each row only; there its
    buffer is rows 256·(t / 16) … 256·(t / 16) + 255 of the layer's function of the three arrays. -/
theorem flushed_eq (c : Dev nD) (t : Fin cfg1.N) (hf : (cfg1.win 3).flush t = true) :
    (dat1 V c).flushed 3 t
      = ((cfg1.win 3).blk t).view.read (Elt Ideal) (aggG (V c main_v5) (V c main_v8) (V c main_v4)) := by
  have h1 : t.val % 16 = 15 := (flush1_3 t).mp hf
  have hN : t.val < 256 := Nat.lt_of_lt_of_eq t.isLt N_1
  obtain ⟨e0, e1⟩ := idx1_3 t
  show (cfg1.win 3).cut (grid1.coords t) ((dat1 V c).after 3 t) = _
  rw [after1_3]
  funext j
  have hp : (j 0).val < 256 := (j 0).isLt
  have hq : (j 1).val < 256 := (j 1).isLt
  rw [View.read_apply]
  have ex : (cfg1.win 3).xinj (grid1.coords t) j = ix2 (⟨(j 0).val, hp⟩ : Fin 256) (⟨(j 1).val, hq⟩ : Fin 256) :=
    funext fun a => by
      match a with
      | ⟨0, _⟩ => rfl
      | ⟨1, _⟩ => rfl
  have ee : ((cfg1.win 3).blk t).view.emb j = ix2 (posAt (t.val / 16) ⟨(j 0).val, hp⟩) (⟨(j 1).val, hq⟩ : Fin 256) :=
    funext fun a => Fin.ext (by
      match a with
      | ⟨0, _⟩ => show win1_3.index t 0 * 256 + 1 * (j 0).val = t.val / 16 % 16 * 256 + (j 0).val; rw [e0]; omega
      | ⟨1, _⟩ => show win1_3.index t 1 * 256 + 1 * (j 1).val = (j 1).val; rw [e1]; omega)
  show ((outsAt1 V c t.val t.isLt).1 ((cfg1.win 3).xinj (grid1.coords t) j) : EReal)
    = aggG (V c main_v5) (V c main_v8) (V c main_v4) (((cfg1.win 3).blk t).view.emb j)
  rw [ex, ee, out_eq V c t h1, tiles_sum]
  rfl

/-- THE COVER. Row r of the result lies in the block of the flushing point 16·(r / 256) + 15. -/
theorem covered (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, ht⟩ : ∃ t : Fin cfg1.N, t.val = 16 * ((i 0).val / 256) + 15 :=
    ⟨⟨16 * ((i 0).val / 256) + 15, by rw [show cfg1.N = 256 from N_1]; omega⟩, rfl⟩
  obtain ⟨e0, e1⟩ := idx1_3 t
  refine ⟨t, (flush1_3 t).mpr (by omega), ?_⟩
  show i ∈ ((View.whole main_v9).slice (win1_3.rect t)).set
  rw [View.set_slice_whole, Rect.mem_set_unit]
  intro a
  match a with
  | ⟨0, _⟩ =>
    show win1_3.index t 0 * 256 ≤ (i 0).val ∧ (i 0).val < win1_3.index t 0 * 256 + 256
    rw [e0]; omega
  | ⟨1, _⟩ =>
    show win1_3.index t 1 * 256 ≤ (i 1).val ∧ (i 1).val < win1_3.index t 1 * 256 + 256
    rw [e1]; omega

end

/-- THE AGGREGATION REGION'S RESULT. With a the adjacency, h the projected features and b the bias as the region finds
    them, the result array ends holding max (Σ_k a(r, k) · h(k, j) + b(0, j), 0) at every (r, j): every flushing point
    writes its block of this one function, and the flushing points' blocks cover the array. -/
theorem agg_final (V : (c : Dev nD) → (b : Ref sig .tc) → Buf (Elt Ideal) ((c : Thread nD τ).loc b)) (c : Dev nD)
    (A : S4096x4096.Idx → EReal) (XW : S4096x256.Idx → EReal) (B : S1x256.Idx → EReal)
    (hA : (V c main_v5 : S4096x4096.Idx → EReal) = A) (hXW : (V c main_v8 : S4096x256.Idx → EReal) = XW) (hB : (V c main_v4 : S1x256.Idx → EReal) = B) :
    ((dat1 (F := Ideal) V c).arrAt 3 cfg1.N : S4096x256.Idx → EReal)
      = fun i => max ((∑ k : Fin 4096, A (ValueIdx.ix2 (i 0) k) * XW (ValueIdx.ix2 k (i 1))) + B (ValueIdx.ix2 (0 : Fin 1) (i 1))) 0 := by
  subst hA hXW hB
  exact (dat1 V c).arrAt_eq_of_cover 3 (aggG (V c main_v5) (V c main_v8) (V c main_v4)) (flushed_eq V c) covered

end Cert.ReferenceIdeal.RF

end
-- ==== Proof.RefFinal.lean ====
/-
  The reference's result. The aggregation region's write-backs leave, in the result's buffer, the clipped and biased
  product of the adjacency it found with the projected features the projection region left, and those are the product
  of the features and the weights the host handed over unchanged: the layer's function of the four launched arguments.
-/
import proofs.«122544_g2000504869895307_pallasbulk_559_14_alg».proof.Proof.RefHost
import proofs.«122544_g2000504869895307_pallasbulk_559_14_alg».proof.Proof.RefProjValue
import proofs.«122544_g2000504869895307_pallasbulk_559_14_alg».proof.Proof.RefAggValue
import proofs.«122544_g2000504869895307_pallasbulk_559_14_alg».proof.Proof.Spec

set_option maxRecDepth 16384

noncomputable section

namespace Cert.ReferenceIdeal.RF

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The biases reshaped to one row, read at column `q` of that row, are bias `q`. -/
theorem bias_row (b : S256.Idx → EReal) (q : Fin 256) :
    shapeCast S1x256 b shapeCasts_S256_S1x256 (ix2 (0 : Fin 1) q) = b (ix1 q) :=
  shapeCast_apply b shapeCasts_S256_S1x256 (ix2 (0 : Fin 1) q) (ix1 q) (by
    rw [Shape.rowMajor_val_one, Shape.rowMajor_val_two]
    show q.val = 0 * 256 + q.val
    omega)

/-- The clipped, biased product of an adjacency with the product of features and weights, the bias read off its row
    form, is the layer's function. -/
theorem G_of_parts (A : S4096x4096.Idx → EReal) (X : S4096x256.Idx → EReal) (W : S256x256.Idx → EReal) (b : S256.Idx → EReal) :
    (fun i : S4096x256.Idx => max ((∑ k : Fin 4096, A (ix2 (i 0) k)
        * (fun i' : S4096x256.Idx => ∑ l : Fin 256, X (ix2 (i' 0) l) * W (ix2 l (i' 1))) (ix2 k (i 1)))
        + shapeCast S1x256 b shapeCasts_S256_S1x256 (ix2 (0 : Fin 1) (i 1))) 0)
      = Cert.GcnSpec.G A X W b := by
  funext i
  obtain ⟨p, q, rfl⟩ : ∃ (p : Fin 4096) (q : Fin 256), i = ix2 p q := ⟨i 0, i 1, eq_ix2 i⟩
  show max ((∑ k : Fin 4096, A (ix2 p k) * ∑ l : Fin 256, X (ix2 k l) * W (ix2 l q))
      + shapeCast S1x256 b shapeCasts_S256_S1x256 (ix2 (0 : Fin 1) q)) 0 = _
  rw [bias_row]
  rfl

variable (m : (ℓ : Loc nD τ sig) → Buf (Elt Ideal) ℓ)

/-- After the reference's run the result's buffer holds the layer's output of the launched arguments. -/
theorem final (c : Dev nD) :
    W11 m c (Proc.devRef .tc main_v9) = Cert.GcnSpec.G (m ((c : Thread nD τ).loc main_arg0)) (m ((c : Thread nD τ).loc main_arg1))
      (m ((c : Thread nD τ).loc main_arg2)) (m ((c : Thread nD τ).loc main_arg3)) := by
  refine (W11_v9 m c).trans ?_
  refine (agg_final (Vr1 m) c _ _ _ (Vr1_v5 m c)
    ((Vr1_v8 m c).trans (proj_final (Vr0 m) c _ _ (Vr0_v6 m c) (Vr0_v7 m c))) (Vr1_v4 m c)).trans ?_
  exact G_of_parts _ _ _ _

end Cert.ReferenceIdeal.RF

end
-- ==== Proof.lean ====
/-
  The certificate of the fused graph-convolution kernel against its tiled two-kernel reference.

  Both programs compute relu (A · (x · w) + b) over the extended reals. The kernel computes x · w once into a scratch
  it keeps for the rest of its grid and then, row block by row block, multiplies the adjacency rows with it, adds the
  bias and clips at zero. The reference first projects the features row tile by row tile, then, for every row tile,
  adds up the sixteen products of an adjacency tile with a tile of the projected features in an accumulator carried
  from grid point to grid point, and at the sixteenth adds the bias and clips. A finite sum may be grouped and ordered
  at will, so entry by entry the two results are one function of the four arguments (Proof/Spec.lean), and no
  finiteness of the inputs is used.

  The frames of the kernel at both instances are the generated ones. The reference launches kernels itself: its run
  (Proof/RefRun.lean, over the two regions' proof data in Proof/RefRegion0.lean and Proof/RefAgg*.lean) gives its frame
  and, read at the result's buffer (Proof/RefFinal.lean), its value; the kernel's value is Proof/KernelValue.lean.
-/
import proofs.«122544_g2000504869895307_pallasbulk_559_14_alg».proof.Defs
import proofs.«122544_g2000504869895307_pallasbulk_559_14_alg».proof.Proof.Gen.Kernel
import proofs.«122544_g2000504869895307_pallasbulk_559_14_alg».proof.Proof.Gen.Kernel.Frame
import proofs.«122544_g2000504869895307_pallasbulk_559_14_alg».proof.Proof.Gen.KernelIdeal
import proofs.«122544_g2000504869895307_pallasbulk_559_14_alg».proof.Proof.Gen.KernelIdeal.Frame
import proofs.«122544_g2000504869895307_pallasbulk_559_14_alg».proof.Proof.Gen.ReferenceIdeal
import proofs.«122544_g2000504869895307_pallasbulk_559_14_alg».proof.Proof.Gen.Pre_finite_inputs
import proofs.«122544_g2000504869895307_pallasbulk_559_14_alg».proof.Proof.KernelValue
import proofs.«122544_g2000504869895307_pallasbulk_559_14_alg».proof.Proof.RefFinal
import Idealize.ShloMosaic.Adequacy
import Idealize.ShloMosaic.Init

noncomputable section

namespace Cert.Proof

open Idealize.ShloMosaic Idealize.ShloMosaic.TcCoe Idealize.SL.Sem

/-- The reference's run at the ideal values: it ends with the result's buffer at the layer's output of the launched
    arguments, and the arguments as launched. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v9)
            = Cert.GcnSpec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun r h c =>
      ⟨(h c _ (Cert.ReferenceIdeal.RF.mem_uc Cert.ReferenceIdeal.main_v9 (by decide))).trans (Cert.ReferenceIdeal.RF.final m c),
       (h c _ (Cert.ReferenceIdeal.RF.mem_uc Cert.ReferenceIdeal.main_arg0 (by decide))).trans (Cert.ReferenceIdeal.RF.W11_arg0 m c),
       (h c _ (Cert.ReferenceIdeal.RF.mem_uc Cert.ReferenceIdeal.main_arg1 (by decide))).trans (Cert.ReferenceIdeal.RF.W11_arg1 m c),
       (h c _ (Cert.ReferenceIdeal.RF.mem_uc Cert.ReferenceIdeal.main_arg2 (by decide))).trans (Cert.ReferenceIdeal.RF.W11_arg2 m c),
       (h c _ (Cert.ReferenceIdeal.RF.mem_uc Cert.ReferenceIdeal.main_arg3 (by decide))).trans (Cert.ReferenceIdeal.RF.W11_arg3 m c)⟩)
    (Cert.ReferenceIdeal.RF.run_all m ρ)

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result forgotten. -/
theorem frame_ri : @Cert.frame_ReferenceIdeal Cert.ReferenceIdeal.Gen.facts Cert.Pre_finite_inputs.Gen.facts :=
  fun m ρ _ => (θ_run (Cert.ReferenceIdeal.defs (F := Ideal)) _ _).mono (fun _ h c => (h c).2) (ref_run m ρ)

/-- The ideal pass rewrote nothing: the idealized kernel is the kernel's own text read at the ideal values. -/
theorem preserves : Cert.preserves_Kernel_KernelIdeal := trivial

/-- From memories agreeing on the four arguments both programs end with the result's buffer at the layer's output of
    those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KV.run m ρ, ?_⟩
  refine (θ_run (Cert.ReferenceIdeal.defs (F := Ideal)) _ _).mono (fun _ h c => ⟨(h c).1.trans ?_, (h c).2⟩) (ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
